-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x8192 : Shape := ⟨2, ![64, 8192]⟩
abbrev S8192x9248 : Shape := ⟨2, ![8192, 9248]⟩
abbrev S9248x8192 : Shape := ⟨2, ![9248, 8192]⟩
abbrev S_ : Shape := ⟨0, ![]⟩

class Facts : Prop where
  bcast_S_S64x8192 : S_.BroadcastsInDim S64x8192 (![] : Fin 0 → Fin S64x8192.rank)
  reducesTo_S64x8192_S_d0_1 : S64x8192.ReducesTo [0, 1] S_
  h_S_ : 0 < S_.numel
  bcast_S_S8192x9248 : S_.BroadcastsInDim S8192x9248 (![] : Fin 0 → Fin S8192x9248.rank)
  reducesTo_S8192x9248_S_d0_1 : S8192x9248.ReducesTo [0, 1] S_
  bcast_S_S9248x8192 : S_.BroadcastsInDim S9248x8192 (![] : Fin 0 → Fin S9248x8192.rank)
  reducesTo_S9248x8192_S_d0_1 : S9248x8192.ReducesTo [0, 1] S_

variable [Facts]

def fn {F : FTy → Type} [FloatOps F] (main_arg0 : FVec F S64x8192 .f32) (main_arg1 : FVec F S8192x9248 .f32) (main_arg2 : FVec F S9248x8192 .f32) : IVec S_ 1 :=
  let main_v0 : FVec F S64x8192 .f32 := Host.absf main_arg0
  let main_cst : FVec F S_ .f32 := constant S_ .f32 0x7F800000#32
  let main_v1 : FVec F S64x8192 .f32 := broadcastInDim S64x8192 ![] bcast_S_S64x8192 main_cst
  let main_v2 : IVec S64x8192 1 := cmpf .olt main_v0 main_v1
  let main_c : IVec S_ 1 := constantI S_ 1 1#1
  let main_v3 : IVec S_ 1 := (fun x v => Host.reduce IntOp.andi x v reducesTo_S64x8192_S_d0_1 h_S_) main_v2 main_c
  let main_v4 : FVec F S8192x9248 .f32 := Host.absf main_arg1
  let main_cst_0 : FVec F S_ .f32 := constant S_ .f32 0x7F800000#32
  let main_v5 : FVec F S8192x9248 .f32 := broadcastInDim S8192x9248 ![] bcast_S_S8192x9248 main_cst_0
  let main_v6 : IVec S8192x9248 1 := cmpf .olt main_v4 main_v5
  let main_c_1 : IVec S_ 1 := constantI S_ 1 1#1
  let main_v7 : IVec S_ 1 := (fun x v => Host.reduce IntOp.andi x v reducesTo_S8192x9248_S_d0_1 h_S_) main_v6 main_c_1
  let main_v8 : IVec S_ 1 := andi main_v3 main_v7
  let main_v9 : FVec F S9248x8192 .f32 := Host.absf main_arg2
  let main_cst_2 : FVec F S_ .f32 := constant S_ .f32 0x7F800000#32
  let main_v10 : FVec F S9248x8192 .f32 := broadcastInDim S9248x8192 ![] bcast_S_S9248x8192 main_cst_2
  let main_v11 : IVec S9248x8192 1 := cmpf .olt main_v9 main_v10
  let main_c_3 : IVec S_ 1 := constantI S_ 1 1#1
  let main_v12 : IVec S_ 1 := (fun x v => Host.reduce IntOp.andi x v reducesTo_S9248x8192_S_d0_1 h_S_) main_v11 main_c_3
  let main_v13 : IVec S_ 1 := andi main_v8 main_v12
  main_v13
-- ==== Kernel.lean ====
abbrev S64x8192 : Shape := ⟨2, ![64, 8192]⟩
abbrev S8192x9248 : Shape := ⟨2, ![8192, 9248]⟩
abbrev S9248x8192 : Shape := ⟨2, ![9248, 8192]⟩
abbrev S64x9248 : Shape := ⟨2, ![64, 9248]⟩
abbrev S64x512 : Shape := ⟨2, ![64, 512]⟩
abbrev S4736x512 : Shape := ⟨2, ![4736, 512]⟩
abbrev S64x4736 : Shape := ⟨2, ![64, 4736]⟩
abbrev S256x9248 : Shape := ⟨2, ![256, 9248]⟩
abbrev S64x256 : Shape := ⟨2, ![64, 256]⟩

abbrev nBuf : Space → Nat
  | .hbm => 5
  | .vmem => 13
  | .smem => 0
  | _ => 0

abbrev bufTy : (tb : Table) → Fin (tcTables nBuf tb) → BufTy
  | .hbm, ⟨0, _⟩ => ⟨S64x8192, .f32⟩
  | .hbm, ⟨1, _⟩ => ⟨S8192x9248, .f32⟩
  | .hbm, ⟨2, _⟩ => ⟨S9248x8192, .f32⟩
  | .hbm, ⟨3, _⟩ => ⟨S64x9248, .f32⟩
  | .hbm, ⟨4, _⟩ => ⟨S64x8192, .f32⟩
  | .local _ .vmem, ⟨0, _⟩ => ⟨S64x512, .f32⟩
  | .local _ .vmem, ⟨1, _⟩ => ⟨S64x512, .f32⟩
  | .local _ .vmem, ⟨2, _⟩ => ⟨S4736x512, .f32⟩
  | .local _ .vmem, ⟨3, _⟩ => ⟨S4736x512, .f32⟩
  | .local _ .vmem, ⟨4, _⟩ => ⟨S64x4736, .f32⟩
  | .local _ .vmem, ⟨5, _⟩ => ⟨S64x4736, .f32⟩
  | .local _ .vmem, ⟨6, _⟩ => ⟨S64x4736, .f32⟩
  | .local _ .vmem, ⟨7, _⟩ => ⟨S64x9248, .f32⟩
  | .local _ .vmem, ⟨8, _⟩ => ⟨S256x9248, .f32⟩
  | .local _ .vmem, ⟨9, _⟩ => ⟨S256x9248, .f32⟩
  | .local _ .vmem, ⟨10, _⟩ => ⟨S64x256, .f32⟩
  | .local _ .vmem, ⟨11, _⟩ => ⟨S64x256, .f32⟩
  | .local _ .vmem, ⟨12, _⟩ => ⟨S64x256, .f32⟩
  | _, _ => ⟨S64x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem1_0 : DmaSem sig := 7
abbrev cc1_sem1_1 : DmaSem sig := 8
abbrev cc1_sem2_0 : DmaSem sig := 9
abbrev cc1_sem2_1 : DmaSem sig := 10

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c15_i32 : BitVec 32 := 15#32
  let v13 : BitVec 1 := Scalar.cmpi .eq arg1 c15_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4736x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S64x4736 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![32, 1], ![false, false]⟩

def k1_cond2 (i : grid1.Coords) : BitVec 1 :=
  let arg1 : BitVec 32 := BitVec.ofNat 32 (i 1).val
  let c0_i32_8 : BitVec 32 := 0#32
  let v14 : BitVec 1 := Scalar.cmpi .eq arg1 c0_i32_8
  let v15 : BitVec 32 := Scalar.extui v14
  let c0_i32_9 : BitVec 32 := 0#32
  let v16 : BitVec 1 := Scalar.cmpi .ne v15 c0_i32_9
  v16

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 1 → Memref sig .tc .vmem S64x9248 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, true]

abbrev stage1_1 : Fin 2 → Memref sig .tc .vmem S256x9248 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S64x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  inb_S64x4736_S64x4736_0_0 : ∀ a, (![0, 0] : Fin 2 → Nat) a + S64x4736.size a ≤ S64x4736.size a
  h_S64x4736 : 0 < S64x4736.numel
  shapeCasts_S64x4736_S64x4736 : S64x4736.ShapeCasts S64x4736
  inb_S64x512_S64x512_0_0 : ∀ a, (![0, 0] : Fin 2 → Nat) a + S64x512.size a ≤ S64x512.size a
  h_S64x512 : 0 < S64x512.numel
  bitsLt_bf16_f32 : FTy.bits .bf16 < FTy.bits .f32
  inb_S4736x512_S4736x512_0_0 : ∀ a, (![0, 0] : Fin 2 → Nat) a + S4736x512.size a ≤ S4736x512.size a
  h_S4736x512 : 0 < S4736x512.numel
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S64x9248_S64x9248_0_0 : ∀ a, (![0, 0] : Fin 2 → Nat) a + S64x9248.size a ≤ S64x9248.size a
  h_S64x9248 : 0 < S64x9248.numel
  shapeCasts_S64x9248_S64x9248 : S64x9248.ShapeCasts S64x9248
  inb_S256x9248_S256x9248_0_0 : ∀ a, (![0, 0] : Fin 2 → Nat) a + S256x9248.size a ≤ S256x9248.size a
  h_S256x9248 : 0 < S256x9248.numel
  dot_S64x512_S4736x512_S64x4736_1_1_0_0_n_n_wf : DotDims.WF S64x512 S4736x512 S64x4736 [1] [1] [0] [0] [] []
  dot_S64x9248_S256x9248_S64x256_1_1_0_0_n_n_wf : DotDims.WF S64x9248 S256x9248 S64x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x512.size a ≤ S64x8192.size a
  hwx0_0 : ∀ i : grid0.Coords, EltTy.bits .f32 = 32 ∨ (Rect.block (s := S64x8192) S64x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S4736x512.size a < S9248x8192.size a
  hwx0_1 : ∀ i : grid0.Coords, EltTy.bits .f32 = 32 ∨ (Rect.unit (s := S9248x8192) (fun a => cc0_transform_1 i a * S4736x512.size a) (fun a => (Pipeline.Clip.of (cc0_transform_1 i a) (S4736x512.size a) (S9248x8192.size a)).extent (S4736x512.size a)) fun a => Pipeline.Clip.inb (Pipeline.Clip.ok_of (hstart0_1 i a))).WholeWords (EltTy.packing .f32)
  hwxs0_1 : ∀ i : grid0.Coords, EltTy.bits .f32 = 32 ∨ (Rect.unit (s := S4736x512) (fun _ => 0) (fun a => (Pipeline.Clip.of (cc0_transform_1 i a) (S4736x512.size a) (S9248x8192.size a)).extent (S4736x512.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S64x4736.size a < S64x9248.size a
  hwx0_2 : ∀ i : grid0.Coords, EltTy.bits .f32 = 32 ∨ (Rect.unit (s := S64x9248) (fun a => cc0_transform_2 i a * S64x4736.size a) (fun a => (Pipeline.Clip.of (cc0_transform_2 i a) (S64x4736.size a) (S64x9248.size a)).extent (S64x4736.size a)) fun a => Pipeline.Clip.inb (Pipeline.Clip.ok_of (hstart0_2 i a))).WholeWords (EltTy.packing .f32)
  hwxs0_2 : ∀ i : grid0.Coords, EltTy.bits .f32 = 32 ∨ (Rect.unit (s := S64x4736) (fun _ => 0) (fun a => (Pipeline.Clip.of (cc0_transform_2 i a) (S64x4736.size a) (S64x9248.size a)).extent (S64x4736.size a)) fun a => (Nat.zero_add _).trans_le (Pipeline.Clip.extent_le (Pipeline.Clip.ok_of (hstart0_2 i a)))).WholeWords (EltTy.packing .f32)
  hrank1 : 0 < grid1.rank
  hstage1_0 : ∀ j, (stage1_0 j).IsWhole
  nbuf1_0 : grid1.bufCount reads1_0 false = 1
  hreads1_0 : ∀ i i' : grid1.Coords, (∀ a, reads1_0 a = true → i a = i' a) → cc1_transform_0 i = cc1_transform_0 i'
  hinb1_0 : ∀ (i : grid1.Coords) a, (cc1_transform_0 i a + 1) * S64x9248.size a ≤ S64x9248.size a
  hwx1_0 : ∀ i : grid1.Coords, EltTy.bits .f32 = 32 ∨ (Rect.block (s := S64x9248) S64x9248.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x9248.size a ≤ S8192x9248.size a
  hwx1_1 : ∀ i : grid1.Coords, EltTy.bits .f32 = 32 ∨ (Rect.block (s := S8192x9248) S256x9248.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S64x256.size a ≤ S64x8192.size a
  hwx1_2 : ∀ i : grid1.Coords, EltTy.bits .f32 = 32 ∨ (Rect.block (s := S64x8192) S64x256.size (cc1_transform_2 i) (hinb1_2 i)).WholeWords (EltTy.packing .f32)

variable [Facts₀]

def dot_S64x512_S4736x512_S64x4736_1_1_0_0_n_n : DotDims S64x512 S4736x512 S64x4736 where
  lhsContracting := [1]
  rhsContracting := [1]
  lhsNonContracting := [0]
  rhsNonContracting := [0]
  lhsBatch := []
  rhsBatch := []
  wf := dot_S64x512_S4736x512_S64x4736_1_1_0_0_n_n_wf
def dot_S64x9248_S256x9248_S64x256_1_1_0_0_n_n : DotDims S64x9248 S256x9248 S64x256 where
  lhsContracting := [1]
  rhsContracting := [1]
  lhsNonContracting := [0]
  rhsNonContracting := [0]
  lhsBatch := []
  rhsBatch := []
  wf := dot_S64x9248_S256x9248_S64x256_1_1_0_0_n_n_wf

abbrev win0_0 : Pipeline.Window sig grid0 :=
  Pipeline.Window.ofSpec (Memref.whole main_arg0) S64x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpecClip (Memref.whole main_arg2) S4736x512.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_v0) S64x4736.size cc0_transform_2 reads0_2 true false 2 stage0_2 sem0_2
    hrank0 hreads0_2 hstart0_2 nbuf0_2 (Memref.isWhole_whole _) hwx0_2 hwxs0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v0) S64x9248.size cc1_transform_0 reads1_0 false false 1 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S256x9248.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S64x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S64x8192 : Shape := ⟨2, ![64, 8192]⟩
abbrev S8192x9248 : Shape := ⟨2, ![8192, 9248]⟩
abbrev S9248x8192 : Shape := ⟨2, ![9248, 8192]⟩
abbrev S64x9248 : Shape := ⟨2, ![64, 9248]⟩

abbrev nBuf : Space → Nat
  | .hbm => 7
  | .vmem => 0
  | .smem => 0
  | _ => 0

abbrev bufTy : (tb : Table) → Fin (tcTables nBuf tb) → BufTy
  | .hbm, ⟨0, _⟩ => ⟨S64x8192, .f32⟩
  | .hbm, ⟨1, _⟩ => ⟨S8192x9248, .f32⟩
  | .hbm, ⟨2, _⟩ => ⟨S9248x8192, .f32⟩
  | .hbm, ⟨3, _⟩ => ⟨S8192x9248, .f32⟩
  | .hbm, ⟨4, _⟩ => ⟨S64x9248, .f32⟩
  | .hbm, ⟨5, _⟩ => ⟨S9248x8192, .f32⟩
  | .hbm, ⟨6, _⟩ => ⟨S64x8192, .f32⟩
  | _, _ => ⟨S64x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  transposes_S9248x8192_S8192x9248_1_0 : S9248x8192.Transposes [1, 0] S8192x9248
  transposes_S8192x9248_S9248x8192_1_0 : S8192x9248.Transposes [1, 0] S9248x8192
  dot_S64x8192_S8192x9248_S64x9248_1_0_0_1_n_n_wf : DotDims.WF S64x8192 S8192x9248 S64x9248 [1] [0] [0] [1] [] []
  dot_S64x9248_S9248x8192_S64x8192_1_0_0_1_n_n_wf : DotDims.WF S64x9248 S9248x8192 S64x8192 [1] [0] [0] [1] [] []

variable [Facts₀]

def dot_S64x8192_S8192x9248_S64x9248_1_0_0_1_n_n : DotDims S64x8192 S8192x9248 S64x9248 where
  lhsContracting := [1]
  rhsContracting := [0]
  lhsNonContracting := [0]
  rhsNonContracting := [1]
  lhsBatch := []
  rhsBatch := []
  wf := dot_S64x8192_S8192x9248_S64x9248_1_0_0_1_n_n_wf
def dot_S64x9248_S9248x8192_S64x8192_1_0_0_1_n_n : DotDims S64x9248 S9248x8192 S64x8192 where
  lhsContracting := [1]
  rhsContracting := [0]
  lhsNonContracting := [0]
  rhsNonContracting := [1]
  lhsBatch := []
  rhsBatch := []
  wf := dot_S64x9248_S9248x8192_S64x8192_1_0_0_1_n_n_wf

class Facts : Prop extends Facts₀ where

variable [Facts]
-- ==== Proof.KernelFrame.lean ====
/- The frame of the word-level program: `Cert.Kernel` run at any float instance leaves its three argument arrays as
   launched, terminating without a fault.

   The program is two pallas_calls of one tiled `a · bᵀ` kernel with an accumulator: the first multiplies `enc_x` by
   `padding_transformᵀ` into an intermediate array, the second multiplies that by `weightᵀ`. The first call's second
   operand is cut into row blocks that overhang the array: the rows of the last block past the array's end hold words
   nothing names, they pass through the matrix product into the accumulator, and so the intermediate array's contents
   cannot be written as a function of the launch memory. The frame does not need them. The proof therefore uses proof
   data that CONSTRAINS what a body leaves in a buffer instead of naming it, with the empty constraint: every body runs
   on buffers of any contents (no branch reads a loaded word) and hands them back holding something; an input array is
   never written back, so it ends as it was entered.

   One point needs care: a call's proof data states the contents its arrays are ENTERED at, and the second call enters
   the intermediate array at contents known only once the first call has run. So @main is read as the first call, a
   region, followed by a stretch whose account opens the intermediate array's contents and enters the second call's
   region at proof data taken at them; that second entry is funded by a second copy of the rounds algebra, dealt at
   launch and carried past the first call. -/
import proofs.«124964_j67465346285598_2_alg».proof.Proof.Gen.Kernel.Launch
import proofs.«124964_j67465346285598_2_alg».proof.Proof.Gen.Kernel.Skeleton
import proofs.«124964_j67465346285598_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Proof.KernelFrame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)
open Cert.Kernel Cert.Kernel.Gen

variable {F : FTy → Type} [FloatOps F]

/-- The resource algebra of the proof: two copies of the rounds algebra, one per pallas_call. -/
abbrev UU : Type := UR sig nD τ × UR sig nD τ

local notation "𝕄" => MT nD τ sig Unit (Elt F) ℕ UU ℕ

/-! # The two matmul bodies run on staging buffers of any contents

Both pallas_calls run one tiled `a · bᵀ` body: zero the accumulator where the reduction coordinate is 0, add the
product of the two blocks to it, copy it to the output block where the reduction coordinate is the last. No branch
reads a loaded word, so the body runs to its end whatever words its buffers hold, and hands every buffer back
holding some words. That is all a frame needs of it. -/

/-- A memref held whole at some contents. -/
abbrev someAt {sp : Space} {s : Shape} {e : EltTy} (c : Dev nD) (M : Memref sig .tc sp s e) : sProp 𝕄 :=
  iprop(∃ f, M.view.loc (c : Thread nD τ) ↦[M.view.set]{fullShare} f)

theorem someAt_of_owns {sp : Space} {s : Shape} {e : EltTy} (c : Dev nD) (M : Memref sig .tc sp s e) (X : s.Idx → Elt F e) :
    (owns (c : Thread nD τ) M fullShare X : sProp 𝕄) ⊢ someAt (F := F) c M := by
  unfold owns; iintro ⟨%f, -, H⟩; iexists f; iexact H

theorem owns_of_someAt {sp : Space} {s : Shape} {e : EltTy} (c : Dev nD) (M : Memref sig .tc sp s e) :
    someAt (F := F) c M ⊢ (iprop(∃ X, ⌜True⌝ ∗ owns (c : Thread nD τ) M fullShare X) : sProp 𝕄) := by
  iintro ⟨%f, H⟩; iexists (M.view.read (Elt F) f); isplitr; · ipureintro; trivial
  iapply (owns_intro (c : Thread nD τ) M fullShare f); iexact H

theorem someAt_whole (c : Dev nD) (b : Ref sig .tc) :
    (someAt (F := F) c (Memref.whole b) : sProp 𝕄) = iprop(∃ f : Buf (Elt F) ((c : Thread nD τ).loc b), ((c : Thread nD τ).loc b) ↦{fullShare} f) := by
  simp only [someAt, Memref.view_whole, View.set_whole]

theorem someAt_whole_intro (c : Dev nD) (b : Ref sig .tc) :
    (iprop(∃ f : Buf (Elt F) ((c : Thread nD τ).loc b), ((c : Thread nD τ).loc b) ↦{fullShare} f) : sProp 𝕄) ⊢ someAt (F := F) c (Memref.whole b) :=
  Entails.of_eq (someAt_whole c b).symm

theorem someAt_whole_elim (c : Dev nD) (b : Ref sig .tc) :
    someAt (F := F) c (Memref.whole b) ⊢ (iprop(∃ f : Buf (Elt F) ((c : Thread nD τ).loc b), ((c : Thread nD τ).loc b) ↦{fullShare} f) : sProp 𝕄) :=
  Entails.of_eq (someAt_whole c b)

/-! ## The first matmul: `enc_x · padding_transformᵀ`, grid 2 × 16 -/

/-- Its first conditional: the reduction coordinate is 0. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 16 = 0 :=
  (by decide +kernel : ∀ t : Fin grid0.N, cond0_0 (grid0.coords t) ↔ t.val % 16 = 0)
/-- Its second: the reduction coordinate is 15, the last. -/
abbrev cond0_1 (i : grid0.Coords) : Prop := k0_cond2 i = 1#1
theorem hcond0_1 : ∀ t : Fin cfg0.N, cond0_1 (grid0.coords t) ↔ t.val % 16 = 15 :=
  (by decide +kernel : ∀ t : Fin grid0.N, cond0_1 (grid0.coords t) ↔ t.val % 16 = 15)

section Run0
variable (c : Dev nD) (i : grid0.Coords) (arg2 : Memref sig .tc .vmem S64x512 .f32) (harg2 : arg2.IsWhole) (arg3 : Memref sig .tc .vmem S4736x512 .f32) (harg3 : arg3.IsWhole) (arg4 : Memref sig .tc .vmem S64x4736 .f32) (harg4 : arg4.IsWhole) (arg5 : Memref sig .tc .vmem S64x4736 .f32) (harg5 : arg5.IsWhole)

/-- The four buffers of the body, each at some contents. -/
abbrev bufs0 : sProp 𝕄 := iprop(someAt (F := F) c arg2 ∗ someAt (F := F) c arg3 ∗ someAt (F := F) c arg4 ∗ someAt (F := F) c arg5)

set_option maxHeartbeats 1000000 in
/-- First reduction step of a column block: the accumulator is zeroed, then accumulated into. -/
theorem run0_first (hc0 : cond0_0 i) (hc1 : ¬cond0_1 i) (E : Set ℕ) (K : PUnit → sProp 𝕄) :
    iprop(bufs0 (F := F) c arg2 arg3 arg4 arg5 ∗ (bufs0 (F := F) c arg2 arg3 arg4 arg5 -∗ K ⟨⟩))
      ⊢ wp frame (wpE (defs₀ (F := F)) Variants.none c none) E (cc0__matmul_bT_kernel i arg2 harg2 arg3 harg3 arg4 harg4 arg5 harg5) K := by
  simp only [cc0__matmul_bT_kernel_eq_skeleton]; unfold cc0__matmul_bT_kernel_skel
  iintro ⟨⟨⟨%f2, H2⟩, ⟨%f3, H3⟩, ⟨%f4, H4⟩, ⟨%f5, H5⟩⟩, Hk⟩
  sl_exec (disch := first | exact hc0 | exact hc1)
  sl_step
  iapply Hk
  isplitl [H2]; · iexists _; iexact H2
  isplitl [H3]; · iexists _; iexact H3
  isplitl [H4]; · iexists _; iexact H4
  iexists _; iexact H5

set_option maxHeartbeats 1000000 in
/-- A middle reduction step: accumulated into, nothing else. -/
theorem run0_mid (hc0 : ¬cond0_0 i) (hc1 : ¬cond0_1 i) (E : Set ℕ) (K : PUnit → sProp 𝕄) :
    iprop(bufs0 (F := F) c arg2 arg3 arg4 arg5 ∗ (bufs0 (F := F) c arg2 arg3 arg4 arg5 -∗ K ⟨⟩))
      ⊢ wp frame (wpE (defs₀ (F := F)) Variants.none c none) E (cc0__matmul_bT_kernel i arg2 harg2 arg3 harg3 arg4 harg4 arg5 harg5) K := by
  simp only [cc0__matmul_bT_kernel_eq_skeleton]; unfold cc0__matmul_bT_kernel_skel
  iintro ⟨⟨⟨%f2, H2⟩, ⟨%f3, H3⟩, ⟨%f4, H4⟩, ⟨%f5, H5⟩⟩, Hk⟩
  sl_exec (disch := first | exact hc0 | exact hc1)
  sl_step
  iapply Hk
  isplitl [H2]; · iexists _; iexact H2
  isplitl [H3]; · iexists _; iexact H3
  isplitl [H4]; · iexists _; iexact H4
  iexists _; iexact H5

set_option maxHeartbeats 1000000 in
/-- The last reduction step: accumulated into, then copied to the output block. -/
theorem run0_last (hc0 : ¬cond0_0 i) (hc1 : cond0_1 i) (E : Set ℕ) (K : PUnit → sProp 𝕄) :
    iprop(bufs0 (F := F) c arg2 arg3 arg4 arg5 ∗ (bufs0 (F := F) c arg2 arg3 arg4 arg5 -∗ K ⟨⟩))
      ⊢ wp frame (wpE (defs₀ (F := F)) Variants.none c none) E (cc0__matmul_bT_kernel i arg2 harg2 arg3 harg3 arg4 harg4 arg5 harg5) K := by
  simp only [cc0__matmul_bT_kernel_eq_skeleton]; unfold cc0__matmul_bT_kernel_skel
  iintro ⟨⟨⟨%f2, H2⟩, ⟨%f3, H3⟩, ⟨%f4, H4⟩, ⟨%f5, H5⟩⟩, Hk⟩
  sl_exec (disch := first | exact hc0 | exact hc1)
  sl_step
  iapply Hk
  isplitl [H2]; · iexists _; iexact H2
  isplitl [H3]; · iexists _; iexact H3
  isplitl [H4]; · iexists _; iexact H4
  iexists _; iexact H5

end Run0

/-- The body at any point of the grid. -/
theorem run0 (c : Dev nD) (t : Fin cfg0.N) (E : Set ℕ) (K : PUnit → sProp 𝕄) :
    iprop(bufs0 (F := F) c (st0_0 t) (st0_1 t) (st0_2 t) (Memref.whole cc0_scratch0)
        ∗ (bufs0 (F := F) c (st0_0 t) (st0_1 t) (st0_2 t) (Memref.whole cc0_scratch0) -∗ K ⟨⟩))
      ⊢ wp frame (wpE (defs₀ (F := F)) Variants.none c none) E (bodyAt0 t) K := by
  have hN : t.val < 32 := lt_of_lt_of_eq t.isLt (show cfg0.N = 32 from N_0)
  by_cases h0 : t.val % 16 = 0
  · exact run0_first c (grid0.coords t) _ _ _ _ _ _ _ _ ((hcond0_0 t).mpr h0) (fun h => by have := (hcond0_1 t).mp h; omega) E K
  · by_cases h1 : t.val % 16 = 15
    · exact run0_last c (grid0.coords t) _ _ _ _ _ _ _ _ (fun h => h0 ((hcond0_0 t).mp h)) ((hcond0_1 t).mpr h1) E K
    · exact run0_mid c (grid0.coords t) _ _ _ _ _ _ _ _ (fun h => h0 ((hcond0_0 t).mp h)) (fun h => h1 ((hcond0_1 t).mp h)) E K

/-! ## The second matmul: `(…) · weightᵀ`, grid 32 × 1 — the reduction has one step, so both conditionals hold everywhere -/

abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) :=
  (by decide +kernel : ∀ t : Fin grid1.N, cond1_0 (grid1.coords t))
abbrev cond1_1 (i : grid1.Coords) : Prop := k1_cond2 i = 1#1
theorem hcond1_1 : ∀ t : Fin cfg1.N, cond1_1 (grid1.coords t) :=
  (by decide +kernel : ∀ t : Fin grid1.N, cond1_1 (grid1.coords t))

section Run1
variable (c : Dev nD) (i : grid1.Coords) (arg2 : Memref sig .tc .vmem S64x9248 .f32) (harg2 : arg2.IsWhole) (arg3 : Memref sig .tc .vmem S256x9248 .f32) (harg3 : arg3.IsWhole) (arg4 : Memref sig .tc .vmem S64x256 .f32) (harg4 : arg4.IsWhole) (arg5 : Memref sig .tc .vmem S64x256 .f32) (harg5 : arg5.IsWhole)

abbrev bufs1 : sProp 𝕄 := iprop(someAt (F := F) c arg2 ∗ someAt (F := F) c arg3 ∗ someAt (F := F) c arg4 ∗ someAt (F := F) c arg5)

set_option maxHeartbeats 1000000 in
/-- The one reduction step: the accumulator zeroed, accumulated into, copied to the output block. -/
theorem run1_only (hc0 : cond1_0 i) (hc1 : cond1_1 i) (E : Set ℕ) (K : PUnit → sProp 𝕄) :
    iprop(bufs1 (F := F) c arg2 arg3 arg4 arg5 ∗ (bufs1 (F := F) c arg2 arg3 arg4 arg5 -∗ K ⟨⟩))
      ⊢ wp frame (wpE (defs₀ (F := F)) Variants.none c none) E (cc1__matmul_bT_kernel i arg2 harg2 arg3 harg3 arg4 harg4 arg5 harg5) K := by
  simp only [cc1__matmul_bT_kernel_eq_skeleton]; unfold cc1__matmul_bT_kernel_skel
  iintro ⟨⟨⟨%f2, H2⟩, ⟨%f3, H3⟩, ⟨%f4, H4⟩, ⟨%f5, H5⟩⟩, Hk⟩
  sl_exec (disch := first | exact hc0 | exact hc1)
  sl_step
  iapply Hk
  isplitl [H2]; · iexists _; iexact H2
  isplitl [H3]; · iexists _; iexact H3
  isplitl [H4]; · iexists _; iexact H4
  iexists _; iexact H5

end Run1

theorem run1 (c : Dev nD) (t : Fin cfg1.N) (E : Set ℕ) (K : PUnit → sProp 𝕄) :
    iprop(bufs1 (F := F) c (st1_0 t) (st1_1 t) (st1_2 t) (Memref.whole cc1_scratch0)
        ∗ (bufs1 (F := F) c (st1_0 t) (st1_1 t) (st1_2 t) (Memref.whole cc1_scratch0) -∗ K ⟨⟩))
      ⊢ wp frame (wpE (defs₀ (F := F)) Variants.none c none) E (bodyAt1 t) K :=
  run1_only c (grid1.coords t) _ _ _ _ _ _ _ _ (hcond1_0 t) (hcond1_1 t) E K

/-! # The proof data: nothing is said of what a body leaves in a buffer

The frame does not read a staging buffer's words, so each window's relation between what the body finds and what it
leaves holds of any two contents. The invariant is the scoped buffers no window stages (the accumulator among them)
at some contents and the generator register; nothing is owed; every array is held whole. -/

/-- The first matmul's proof data on core `c`, its arrays entered at contents `A`. -/
def rd0 (c : Dev nD) (A : (w : Fin cfg0.W) → Buf (Elt F) ((cfg0.win w).arr.view.loc (c.tc : Thread nD τ))) :
    RDat τ (Elt F) Unit ℕ UU ℕ cfg0 c where
  A := A
  after _ _ _ _ := True
  Φ _ := Pipeline.ΦA (U := UU) spec0 c
  q _ := fullShare
  owed _ := 0

/-- The second matmul's. -/
def rd1 (c : Dev nD) (A : (w : Fin cfg1.W) → Buf (Elt F) ((cfg1.win w).arr.view.loc (c.tc : Thread nD τ))) :
    RDat τ (Elt F) Unit ℕ UU ℕ cfg1 c where
  A := A
  after _ _ _ _ := True
  Φ _ := Pipeline.ΦA (U := UU) spec1 c
  q _ := fullShare
  owed _ := 0

set_option maxHeartbeats 800000 in
/-- The first matmul's body at a point, on buffers of any contents: the accumulator comes out of the invariant and
    goes back in. -/
theorem sound_body0 (c : Dev nD) (A) (t : Fin cfg0.N) (Y : (w : Fin cfg0.W) → (cfg0.win w).block.Idx → Elt F (cfg0.win w).elt) :
    iprop((rd0 (F := F) c A).Φ t.castSucc ∗ (rd0 (F := F) c A).owesAt () t.castSucc
        ∗ owns (c : Thread nD τ) (st0_0 t) fullShare (Y 0) ∗ owns (c : Thread nD τ) (st0_1 t) fullShare (Y 1) ∗ owns (c : Thread nD τ) (st0_2 t) fullShare (Y 2))
      ⊢ wp frame (wpE (defs₀ (F := F)) Variants.none c none) Set.univ (bodyAt0 t) (fun _ =>
          iprop((rd0 (F := F) c A).Φ t.succ ∗ (rd0 (F := F) c A).owesAt () t.succ
            ∗ (∃ X, ⌜(rd0 (F := F) c A).after 0 t (Y 0) X⌝ ∗ owns (c : Thread nD τ) (st0_0 t) fullShare X)
            ∗ (∃ X, ⌜(rd0 (F := F) c A).after 1 t (Y 1) X⌝ ∗ owns (c : Thread nD τ) (st0_1 t) fullShare X)
            ∗ (∃ X, ⌜(rd0 (F := F) c A).after 2 t (Y 2) X⌝ ∗ owns (c : Thread nD τ) (st0_2 t) fullShare X))) := by
  rw [show (rd0 (F := F) c A).Φ t.succ = Pipeline.ΦA (U := UU) spec0 c from rfl,
    show (rd0 (F := F) c A).Φ t.castSucc = Pipeline.ΦA (U := UU) spec0 c from rfl,
    show (rd0 (F := F) c A).owesAt () t.succ = (rd0 (F := F) c A).owesAt () t.castSucc from rfl]
  unfold Pipeline.ΦA; rw [scopedRest0_eq]
  iintro ⟨⟨⟨Hs, Hrest⟩, Hp⟩, HO, H0, H1, H2⟩
  iapply (run0 (F := F) c t Set.univ _)
  isplitl [Hs H0 H1 H2]
  · isplitl [H0]; · iapply (someAt_of_owns (F := F) c _ _); iexact H0
    isplitl [H1]; · iapply (someAt_of_owns (F := F) c _ _); iexact H1
    isplitl [H2]; · iapply (someAt_of_owns (F := F) c _ _); iexact H2
    iapply (someAt_whole_intro (F := F) c _); iexact Hs
  iintro ⟨H0, H1, H2, Hs⟩
  isplitl [Hs Hrest Hp]
  · isplitl [Hs Hrest]
    · isplitl [Hs]; · iapply (someAt_whole_elim (F := F) c _); iexact Hs
      iexact Hrest
    iexact Hp
  isplitl [HO]; · iexact HO
  isplitl [H0]; · iapply (owns_of_someAt (F := F) c _); iexact H0
  isplitl [H1]; · iapply (owns_of_someAt (F := F) c _); iexact H1
  iapply (owns_of_someAt (F := F) c _); iexact H2

/-- The library's body obligation of the first matmul. -/
theorem body_obligation0 (c : Dev nD) (A) : (rd0 (F := F) c A).BodyObligation (defs₀ (F := F)) Variants.none () Set.univ := fun t Y _ => by
  rw [bigSep_W0, bigSep_W0]
  exact sound_body0 c A t Y

set_option maxHeartbeats 800000 in
/-- The second matmul's body at a point. -/
theorem sound_body1 (c : Dev nD) (A) (t : Fin cfg1.N) (Y : (w : Fin cfg1.W) → (cfg1.win w).block.Idx → Elt F (cfg1.win w).elt) :
    iprop((rd1 (F := F) c A).Φ t.castSucc ∗ (rd1 (F := F) c A).owesAt () t.castSucc
        ∗ owns (c : Thread nD τ) (st1_0 t) fullShare (Y 0) ∗ owns (c : Thread nD τ) (st1_1 t) fullShare (Y 1) ∗ owns (c : Thread nD τ) (st1_2 t) fullShare (Y 2))
      ⊢ wp frame (wpE (defs₀ (F := F)) Variants.none c none) Set.univ (bodyAt1 t) (fun _ =>
          iprop((rd1 (F := F) c A).Φ t.succ ∗ (rd1 (F := F) c A).owesAt () t.succ
            ∗ (∃ X, ⌜(rd1 (F := F) c A).after 0 t (Y 0) X⌝ ∗ owns (c : Thread nD τ) (st1_0 t) fullShare X)
            ∗ (∃ X, ⌜(rd1 (F := F) c A).after 1 t (Y 1) X⌝ ∗ owns (c : Thread nD τ) (st1_1 t) fullShare X)
            ∗ (∃ X, ⌜(rd1 (F := F) c A).after 2 t (Y 2) X⌝ ∗ owns (c : Thread nD τ) (st1_2 t) fullShare X))) := by
  rw [show (rd1 (F := F) c A).Φ t.succ = Pipeline.ΦA (U := UU) spec1 c from rfl,
    show (rd1 (F := F) c A).Φ t.castSucc = Pipeline.ΦA (U := UU) spec1 c from rfl,
    show (rd1 (F := F) c A).owesAt () t.succ = (rd1 (F := F) c A).owesAt () t.castSucc from rfl]
  unfold Pipeline.ΦA; rw [scopedRest1_eq]
  iintro ⟨⟨⟨Ha, Hb, Hc, Hd, He, Hf, Hg, Hs⟩, Hp⟩, HO, H0, H1, H2⟩
  iapply (run1 (F := F) c t Set.univ _)
  isplitl [Hs H0 H1 H2]
  · isplitl [H0]; · iapply (someAt_of_owns (F := F) c _ _); iexact H0
    isplitl [H1]; · iapply (someAt_of_owns (F := F) c _ _); iexact H1
    isplitl [H2]; · iapply (someAt_of_owns (F := F) c _ _); iexact H2
    iapply (someAt_whole_intro (F := F) c _); iexact Hs
  iintro ⟨H0, H1, H2, Hs⟩
  isplitl [Ha Hb Hc Hd He Hf Hg Hs Hp]
  · isplitr [Hp]
    · isplitl [Ha]; · iexact Ha
      isplitl [Hb]; · iexact Hb
      isplitl [Hc]; · iexact Hc
      isplitl [Hd]; · iexact Hd
      isplitl [He]; · iexact He
      isplitl [Hf]; · iexact Hf
      isplitl [Hg]; · iexact Hg
      iapply (someAt_whole_elim (F := F) c _); iexact Hs
    iexact Hp
  isplitl [HO]; · iexact HO
  isplitl [H0]; · iapply (owns_of_someAt (F := F) c _); iexact H0
  isplitl [H1]; · iapply (owns_of_someAt (F := F) c _); iexact H1
  iapply (owns_of_someAt (F := F) c _); iexact H2

/-- The library's body obligation of the second matmul. -/
theorem body_obligation1 (c : Dev nD) (A) : (rd1 (F := F) c A).BodyObligation (defs₀ (F := F)) Variants.none () Set.univ := fun t Y _ => by
  rw [bigSep_W1, bigSep_W1]
  exact sound_body1 c A t Y

/-! # The run: two pallas_calls, the second entered on whatever the first left in its output

Core `c` holds its five unscoped buffers between the items of @main: the three arguments at their launch contents
throughout (each is an input window of one call and bypasses the other), the first call's result at contents nobody
names once that call has run, the second call's result at its launch contents until that call has run. The second
call's proof data names the contents its arrays are entered at, so it is chosen when those are in hand: the call is
run as a stretch of @main whose account opens the contents and then enters the region at them, funded by a copy of
the rounds algebra of its own. -/

abbrev 𝒱₀ : Variants := Variants.none
abbrev L : GSem nD τ sig → Finset Unit := fun _ => ∅
abbrev lv : GSem nD τ sig → Unit → ℕ := fun _ _ => 0
abbrev adm : (p : Fin 2) → (pcfgs (F := F) p).Adm := fun p => (cfgs p).toPCfg_adm

variable (m : (ℓ : Loc nD τ sig) → Buf (Elt F) ℓ)

/-- Core `c`'s unscoped buffers at launch. -/
abbrev VL (c : Dev nD) (b : Ref sig .tc) : Buf (Elt F) ((c : Thread nD τ).loc b) := m ((c : Thread nD τ).loc b)

/-- The generator register at some state and nothing owed: what rides beside the buffers. -/
abbrev R (c : Dev nD) : sProp 𝕄 := iprop((∃ r, prngReg c r) ∗ ∃ W, owes (c : Thread nD τ) (0 : CellTallies nD τ sig Unit) W)

/-- The second call's share of the rounds ghost state, from the second copy of the algebra. -/
abbrev G1 (c : Dev nD) : sProp 𝕄 :=
  iprop(Pipeline.cellsGhost (Pipeline.pin (pcfgs (F := F)) adm) (embR : Emb (UR sig nD τ) 𝕄) 1 c
    ∗ Pipeline.toksInit (Pipeline.pin (pcfgs (F := F)) adm) (embR : Emb (UR sig nD τ) 𝕄) 1 c)

/-- The three arguments at their launch contents. -/
abbrev argsHeld (c : Dev nD) : sProp 𝕄 :=
  iprop((((c : Thread nD τ).loc main_arg0) ↦{fullShare} VL m c main_arg0) ∗ (((c : Thread nD τ).loc main_arg1) ↦{fullShare} VL m c main_arg1)
    ∗ (((c : Thread nD τ).loc main_arg2) ↦{fullShare} VL m c main_arg2))

/-- At launch. -/
abbrev T₀ (c : Dev nD) : sProp 𝕄 := iprop(unscopedBufs c (VL m c) ∗ R (F := F) c ∗ G1 (F := F) c)
/-- Between the calls. -/
abbrev Mid (c : Dev nD) : sProp 𝕄 :=
  iprop(argsHeld m c ∗ (∃ f : Buf (Elt F) ((c : Thread nD τ).loc main_v0), ((c : Thread nD τ).loc main_v0) ↦{fullShare} f)
    ∗ (((c : Thread nD τ).loc main_v1) ↦{fullShare} VL m c main_v1) ∗ R (F := F) c ∗ G1 (F := F) c)
/-- The second call entered with its first operand at `f`. -/
abbrev Pre1 (fv : (c : Dev nD) → Buf (Elt F) ((c : Thread nD τ).loc main_v0)) (c : Dev nD) : sProp 𝕄 :=
  iprop(argsHeld m c ∗ (((c : Thread nD τ).loc main_v0) ↦{fullShare} fv c)
    ∗ (((c : Thread nD τ).loc main_v1) ↦{fullShare} VL m c main_v1) ∗ R (F := F) c)
/-- At the return. -/
abbrev Tₙ (c : Dev nD) : sProp 𝕄 :=
  iprop(argsHeld m c ∗ (∃ f : Buf (Elt F) ((c : Thread nD τ).loc main_v0), ((c : Thread nD τ).loc main_v0) ↦{fullShare} f)
    ∗ (∃ f : Buf (Elt F) ((c : Thread nD τ).loc main_v1), ((c : Thread nD τ).loc main_v1) ↦{fullShare} f) ∗ ∃ r, prngReg c r)

/-- The first call's arrays at launch. -/
abbrev A0 (c : Dev nD) : (w : Fin cfg0.W) → Buf (Elt F) ((cfg0.win w).arr.view.loc (c.tc : Thread nD τ)) :=
  fun w => VL m c (Pipeline.arrRef spec0 w)
/-- The second call's arrays when it is entered: its first operand at `f`, the others as launched. -/
abbrev A1 (fv : (c : Dev nD) → Buf (Elt F) ((c : Thread nD τ).loc main_v0)) (c : Dev nD) :
    (w : Fin cfg1.W) → Buf (Elt F) ((cfg1.win w).arr.view.loc (c.tc : Thread nD τ))
  | ⟨0, _⟩ => fv c
  | ⟨1, _⟩ => VL m c main_arg1
  | ⟨2, _⟩ => VL m c main_v1
  | ⟨_ + 3, h⟩ => absurd h (Nat.not_lt.2 (Nat.le_add_left _ _))

/-- The proof data of both calls, the second's first operand entered at `fv`. -/
def rdats (fv : (c : Dev nD) → Buf (Elt F) ((c : Thread nD τ).loc main_v0)) :
    (p : Fin 2) → (c : Dev nD) → RDat τ (Elt F) Unit ℕ UU ℕ (Pipeline.pin (pcfgs (F := F)) adm p) c
  | ⟨0, _⟩ => fun c => rd0 c (A0 m c)
  | ⟨1, _⟩ => fun c => rd1 c (A1 m fv c)

/-! ## The arrays of a call, buffer by buffer -/

/-- The windowed arrays at contents `G`, whole buffers at the full share, as the buffers behind them. -/
theorem arrays_eq' {cfg : Pipeline.Cfg sig Λ₀} {c : Dev nD} (rd : RDat τ (Elt F) Unit ℕ UU ℕ cfg c)
    (harr : ∀ w, (cfg.spec w).arr.IsWhole) (hshare : ∀ w, rd.share w = fullShare)
    (G : (w : Fin cfg.W) → Buf (Elt F) ((cfg.win w).arr.view.loc (c.tc : Thread nD τ))) :
    rd.arrays G = bigSep Finset.univ fun w => (((c.tc : Thread nD τ).loc (Pipeline.arrRef cfg.spec w)) ↦{fullShare} G w : sProp 𝕄) := by
  unfold RDat.arrays
  exact bigSep_congr fun w _ => by rw [(harr w).set_eq_univ, hshare]

/-- The same after the write-backs below `n`: each at some contents it may then hold. -/
theorem arraysAt_eq' {cfg : Pipeline.Cfg sig Λ₀} {c : Dev nD} (rd : RDat τ (Elt F) Unit ℕ UU ℕ cfg c)
    (harr : ∀ w, (cfg.spec w).arr.IsWhole) (hshare : ∀ w, rd.share w = fullShare) (n : Nat) :
    rd.arraysAt n = bigSep Finset.univ fun w =>
      (iprop(∃ G : Buf (Elt F) ((cfg.win w).arr.view.loc (c.tc : Thread nD τ)), ⌜rd.ArrAt w n G⌝
        ∗ (((c.tc : Thread nD τ).loc (Pipeline.arrRef cfg.spec w)) ↦{fullShare} G)) : sProp 𝕄) := by
  unfold RDat.arraysAt
  exact bigSep_congr fun w _ => by rw [(harr w).set_eq_univ, hshare]

theorem arrays0 (c : Dev nD) (A) (G : (w : Fin cfg0.W) → Buf (Elt F) ((cfg0.win w).arr.view.loc (c.tc : Thread nD τ))) :
    (rd0 (F := F) c A).arrays G = iprop((((c : Thread nD τ).loc main_arg0) ↦{fullShare} G 0) ∗ (((c : Thread nD τ).loc main_arg2) ↦{fullShare} G 1)
      ∗ (((c : Thread nD τ).loc main_v0) ↦{fullShare} G 2)) := by
  rw [arrays_eq' (rd0 (F := F) c A) arr_whole0 ((rd0 (F := F) c A).share_full fun _ => rfl) G, bigSep_W0]

theorem arraysAt0 (c : Dev nD) (A) (n : Nat) :
    (rd0 (F := F) c A).arraysAt n = iprop((∃ G : Buf (Elt F) ((c : Thread nD τ).loc main_arg0), ⌜(rd0 (F := F) c A).ArrAt 0 n G⌝ ∗ (((c : Thread nD τ).loc main_arg0) ↦{fullShare} G))
      ∗ (∃ G : Buf (Elt F) ((c : Thread nD τ).loc main_arg2), ⌜(rd0 (F := F) c A).ArrAt 1 n G⌝ ∗ (((c : Thread nD τ).loc main_arg2) ↦{fullShare} G))
      ∗ (∃ G : Buf (Elt F) ((c : Thread nD τ).loc main_v0), ⌜(rd0 (F := F) c A).ArrAt 2 n G⌝ ∗ (((c : Thread nD τ).loc main_v0) ↦{fullShare} G))) := by
  rw [arraysAt_eq' (rd0 (F := F) c A) arr_whole0 ((rd0 (F := F) c A).share_full fun _ => rfl) n, bigSep_W0]

theorem arrays1 (c : Dev nD) (A) (G : (w : Fin cfg1.W) → Buf (Elt F) ((cfg1.win w).arr.view.loc (c.tc : Thread nD τ))) :
    (rd1 (F := F) c A).arrays G = iprop((((c : Thread nD τ).loc main_v0) ↦{fullShare} G 0) ∗ (((c : Thread nD τ).loc main_arg1) ↦{fullShare} G 1)
      ∗ (((c : Thread nD τ).loc main_v1) ↦{fullShare} G 2)) := by
  rw [arrays_eq' (rd1 (F := F) c A) arr_whole1 ((rd1 (F := F) c A).share_full fun _ => rfl) G, bigSep_W1]

theorem arraysAt1 (c : Dev nD) (A) (n : Nat) :
    (rd1 (F := F) c A).arraysAt n = iprop((∃ G : Buf (Elt F) ((c : Thread nD τ).loc main_v0), ⌜(rd1 (F := F) c A).ArrAt 0 n G⌝ ∗ (((c : Thread nD τ).loc main_v0) ↦{fullShare} G))
      ∗ (∃ G : Buf (Elt F) ((c : Thread nD τ).loc main_arg1), ⌜(rd1 (F := F) c A).ArrAt 1 n G⌝ ∗ (((c : Thread nD τ).loc main_arg1) ↦{fullShare} G))
      ∗ (∃ G : Buf (Elt F) ((c : Thread nD τ).loc main_v1), ⌜(rd1 (F := F) c A).ArrAt 2 n G⌝ ∗ (((c : Thread nD τ).loc main_v1) ↦{fullShare} G))) := by
  rw [arraysAt_eq' (rd1 (F := F) c A) arr_whole1 ((rd1 (F := F) c A).share_full fun _ => rfl) n, bigSep_W1]

/-! ## The calls as regions -/

variable (fv : (c : Dev nD) → Buf (Elt F) ((c : Thread nD τ).loc main_v0))

set_option backward.isDefEq.respectTransparency.types false in
/-- The first call: entered from the launch, its arrays sorted out of the unscoped buffers; left with its inputs as
    entered (an input array is never written back) and its result at some contents. The second call's ghost state
    passes by. -/
def reg0 : Pipeline.RDat.RegionSeg (pcfgs (F := F)) adm (rdats m fv) () defs₀ 𝒱₀ L lv 0 where
  win := launch0.win.to₀
  block_pos := launch0.block_pos
  stage_whole := launch0.stage_whole
  K := PEmpty
  osem k := k.elim
  ho := Pipeline.OwnSemFacts.none _
  hbody c := body_obligation0 c (A0 m c)
  hwaits := Pipeline.RDat.hwaits_of_owed_zero _ _ _ _ L lv 0 fun _ _ => rfl
  pre c := T₀ m c
  post c := Mid m c
  X c := iprop(∃ r, prngReg c r)
  Y c := iprop(∃ r, prngReg c r)
  Z c := iprop(Pipeline.unscopedRest (Ix := Unit) (Name := ℕ) (U := UU) (Lvl := ℕ) spec0 c (VL m c) ∗ G1 (F := F) c)
  hentry c := by
    rw [Pipeline.ownSems0_none]
    have hsplit := Pipeline.RDat.arrays_of_unscopedBufs (p := 0) (pcfgs (F := F)) adm (rdats m fv) launch0.win launch0.arr_whole c
      ((rdats m fv 0 c).share_full fun _ => rfl) (VL m c) fun _ => rfl
    iintro ⟨⟨Hub, ⟨Hp, HO⟩, HG⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    isplitl [Hrest]; · iexact Hrest
    iexact HG
  hin c := by
    rw [show (rdats m fv 0 c).Φ 0 = Pipeline.ΦA (U := UU) spec0 c from rfl]; unfold Pipeline.ΦA
    iintro ⟨Hp, -, Hr⟩
    isplitl [Hr]; · iexact Hr
    iexact Hp
  hout c := by
    rw [Pipeline.ownSems0_none, show (rdats m fv 0 c).Φ (Fin.last _) = Pipeline.ΦA (U := UU) spec0 c from rfl]; unfold Pipeline.ΦA
    iintro ⟨Hr, Hp⟩
    isplitl [Hp]; · iexact Hp
    isplitr; · iempintro
    iexact Hr
  hexit c := by
    rw [show (rdats m fv 0 c).arraysAt (Pipeline.pin (pcfgs (F := F)) adm 0).N = (rd0 (F := F) c (A0 m c)).arraysAt cfg0.N from rfl, arraysAt0,
      unscopedRest0_eq]
    iintro ⟨⟨⟨%F0, %h0, H0⟩, ⟨%F1, %h1, H1⟩, ⟨%F2, -, H2⟩⟩, HO, HY, ⟨⟨Hb1, Hv1⟩, HG⟩⟩
    have e0 : F0 = VL m c main_arg0 := by rw [(rd0 (F := F) c (A0 m c)).ArrAt_in 0 rfl] at h0; exact h0
    have e1 : F1 = VL m c main_arg2 := by rw [(rd0 (F := F) c (A0 m c)).ArrAt_in 1 rfl] at h1; exact h1
    subst e0 e1
    imodintro
    isplitl [H0 Hb1 H1]
    · isplitl [H0]; · iexact H0
      isplitl [Hb1]; · iexact Hb1
      iexact H1
    isplitl [H2]; · iexists F2; iexact H2
    isplitl [Hv1]; · iexact Hv1
    isplitl [HY HO]
    · isplitl [HY]; · iexact HY
      unfold Pipeline.RDat.owesAt Pipeline.owesWithin
      icases HO with ⟨%W, -, HO⟩; iexists W; iexact HO
    iexact HG

set_option backward.isDefEq.respectTransparency.types false in
/-- The second call, its first operand entered at `fv`: the two arguments it does not read pass by. -/
def reg1 : Pipeline.RDat.RegionSeg (pcfgs (F := F)) adm (rdats m fv) () defs₀ 𝒱₀ L lv 1 where
  win := launch1.win.to₀
  block_pos := launch1.block_pos
  stage_whole := launch1.stage_whole
  K := PEmpty
  osem k := k.elim
  ho := Pipeline.OwnSemFacts.none _
  hbody c := body_obligation1 c (A1 m fv c)
  hwaits := Pipeline.RDat.hwaits_of_owed_zero _ _ _ _ L lv 1 fun _ _ => rfl
  pre c := Pre1 m fv c
  post c := iprop(Tₙ m c ∗ ∃ W, owes (c : Thread nD τ) (0 : CellTallies nD τ sig Unit) W)
  X c := iprop(∃ r, prngReg c r)
  Y c := iprop(∃ r, prngReg c r)
  Z c := iprop((((c : Thread nD τ).loc main_arg0) ↦{fullShare} VL m c main_arg0) ∗ (((c : Thread nD τ).loc main_arg2) ↦{fullShare} VL m c main_arg2))
  hentry c := by
    rw [Pipeline.ownSems0_none,
      show (rdats m fv 1 c).arrays (rdats m fv 1 c).A = (rd1 (F := F) c (A1 m fv c)).arrays (A1 m fv c) from rfl, arrays1]
    iintro ⟨⟨⟨Ha0, Ha1, Ha2⟩, Hv0, Hv1, Hp, HO⟩, -, -⟩
    imodintro
    isplitl [Hv0 Ha1 Hv1]
    · isplitl [Hv0]; · iexact Hv0
      isplitl [Ha1]; · iexact Ha1
      iexact Hv1
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    isplitl [Ha0]; · iexact Ha0
    iexact Ha2
  hin c := by
    rw [show (rdats m fv 1 c).Φ 0 = Pipeline.ΦA (U := UU) spec1 c from rfl]; unfold Pipeline.ΦA
    iintro ⟨Hp, -, Hr⟩
    isplitl [Hr]; · iexact Hr
    iexact Hp
  hout c := by
    rw [Pipeline.ownSems0_none, show (rdats m fv 1 c).Φ (Fin.last _) = Pipeline.ΦA (U := UU) spec1 c from rfl]; unfold Pipeline.ΦA
    iintro ⟨Hr, Hp⟩
    isplitl [Hp]; · iexact Hp
    isplitr; · iempintro
    iexact Hr
  hexit c := by
    rw [show (rdats m fv 1 c).arraysAt (Pipeline.pin (pcfgs (F := F)) adm 1).N = (rd1 (F := F) c (A1 m fv c)).arraysAt cfg1.N from rfl, arraysAt1]
    iintro ⟨⟨⟨%F0, -, H0⟩, ⟨%F1, %h1, H1⟩, ⟨%F2, -, H2⟩⟩, HO, HY, ⟨Ha0, Ha2⟩⟩
    have e1 : F1 = VL m c main_arg1 := by rw [(rd1 (F := F) c (A1 m fv c)).ArrAt_in 1 rfl] at h1; exact h1
    subst e1
    imodintro
    isplitr [HO]
    · isplitl [Ha0 H1 Ha2]
      · isplitl [Ha0]; · iexact Ha0
        isplitl [H1]; · iexact H1
        iexact Ha2
      isplitl [H0]; · iexists F0; iexact H0
      isplitl [H2]; · iexists F2; iexact H2
      iexact HY
    unfold Pipeline.RDat.owesAt Pipeline.owesWithin
    icases HO with ⟨%W, -, HO⟩; iexists W; iexact HO

/-! ## The second call as a stretch of @main that chooses its proof data on entry -/

/-- The first call's result on every core, core `c`'s being `f`. -/
abbrev fvOf (c : Dev nD) (f : Buf (Elt F) ((c : Thread nD τ).loc main_v0)) : (c' : Dev nD) → Buf (Elt F) ((c' : Thread nD τ).loc main_v0) :=
  Function.update (fun c' => VL m c' main_v0) c f

theorem fvOf_self (c : Dev nD) (f : Buf (Elt F) ((c : Thread nD τ).loc main_v0)) : fvOf m c f c = f :=
  Function.update_self (β := fun c' : Dev nD => Buf (Elt F) ((c' : Thread nD τ).loc main_v0)) c f _

set_option backward.isDefEq.respectTransparency.types false in
/-- The second custom call, run from the state the first leaves: the contents of its first operand are opened, the
    proof data taken at them, and the region entered by the library's rule on the second copy of the rounds algebra. -/
def call1 : Pipeline.HostSeg (Name := ℕ) (U := UU) (pcfgs (F := F)) defs₀ 𝒱₀ L lv where
  prog := Prog.lift (.customCall (Pipeline.entry 1) ())
  pre c := Mid m c
  post c := iprop(Tₙ m c ∗ ∃ W, owes (c : Thread nD τ) (0 : CellTallies nD τ sig Unit) W)
  run c β k K := by
    rw [show (Prog.lift (.customCall (Pipeline.entry 1) ()) >>= k : Prog (TpuEff nD τ sig (Elt F) (Pipeline.Sig Λ₀ (Fin 2) fun p => (pcfgs (F := F) p).Adm) .tc) β)
      = .op (.customCall (Pipeline.entry 1) ()) k from rfl]
    iintro ⟨Hk, Hbd, ⟨Hargs, ⟨%f, Hv0⟩, Hv1, HR, Hg, Ht⟩, Hla⟩
    iapply (Pipeline.RDat.RegionSeg.wp (pcfgs (F := F)) adm (rdats m (fvOf m c f)) () cellOf_inj (embR : Emb (UR sig nD τ) 𝕄) defs₀ 𝒱₀ L lv
      (reg1 m (fvOf m c f)) c none (fun u h => nomatch h) k K)
    isplitl [Hk]; · iexact Hk
    isplitl [Hbd]; · iexact Hbd
    isplitl [Hargs Hv0 Hv1 HR]
    · iapply (show Pre1 m (fvOf m c f) c ⊢ (reg1 m (fvOf m c f)).pre c from .rfl)
      isplitl [Hargs]; · iexact Hargs
      isplitl [Hv0]
      · iapply (show ((((c : Thread nD τ).loc main_v0) ↦{fullShare} f : sProp 𝕄)) ⊢ (((c : Thread nD τ).loc main_v0) ↦{fullShare} fvOf m c f c) from by
          rw [fvOf_self])
        iexact Hv0
      isplitl [Hv1]; · iexact Hv1
      iexact HR
    isplitl [Hla]; · iexact Hla
    isplitl [Hg]; · iexact Hg
    iexact Ht

/-! ## The frame -/

/-- The launch element of one copy of the rounds algebra. -/
abbrev init₀ : UR sig nD τ := initOf (Pipeline.cells cfgs cellOf_inj) (Pipeline.launchToks cfgs cellOf_inj)

/-- The second copy's ghost state, dealt to every pipeline of core `c`. -/
abbrev Gall (c : Dev nD) : sProp 𝕄 :=
  iprop((bigSep Finset.univ fun p => Pipeline.cellsGhost (Pipeline.pin (pcfgs (F := F)) adm) (embR : Emb (UR sig nD τ) 𝕄) p c)
    ∗ (bigSep Finset.univ fun p => Pipeline.toksInit (Pipeline.pin (pcfgs (F := F)) adm) (embR : Emb (UR sig nD τ) 𝕄) p c))

theorem G1_of_Gall (c : Dev nD) : Gall (F := F) c ⊢ G1 (F := F) c := by
  have h1 : (bigSep Finset.univ fun p => Pipeline.cellsGhost (Pipeline.pin (pcfgs (F := F)) adm) (embR : Emb (UR sig nD τ) 𝕄) p c)
      ⊢ Pipeline.cellsGhost (Pipeline.pin (pcfgs (F := F)) adm) (embR : Emb (UR sig nD τ) 𝕄) 1 c := bigSep_elim (Finset.mem_univ (1 : Fin 2))
  have h2 : (bigSep Finset.univ fun p => Pipeline.toksInit (Pipeline.pin (pcfgs (F := F)) adm) (embR : Emb (UR sig nD τ) 𝕄) p c)
      ⊢ Pipeline.toksInit (Pipeline.pin (pcfgs (F := F)) adm) (embR : Emb (UR sig nD τ) 𝕄) 1 c := bigSep_elim (Finset.mem_univ (1 : Fin 2))
  iintro ⟨Hg, Ht⟩
  isplitl [Hg]
  · iapply h1; iexact Hg
  · iapply h2; iexact Ht

variable (ρ : Dev nD → PrngReg)

set_option backward.isDefEq.respectTransparency.types false in
/-- At the compiled mesh, for any values, from any memory with zero counters: every weakly fair execution of @main on
    the TensorCores terminates, nothing faulting, and every final state holds the three argument arrays as launched. -/
theorem frame : θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.RDat.θ_run_regions_kit (pcfgs (F := F)) adm (rdats m (fun c => VL m c main_v0)) () cellOf_inj (embL : Emb (UR sig nD τ) 𝕄) defs₀ 𝒱₀ L lv m ρ main
    [.region (reg0 m (fun c => VL m c main_v0)), .host (call1 m)]
    (fun c Q => by
      rewrite [main_chain c, Pipeline.RDat.Seg.run_eq_chain,
        show ([.region (reg0 m (fun c => VL m c main_v0)), .host (call1 m)] :
            List (Pipeline.RDat.Seg (pcfgs (F := F)) adm (rdats m (fun c => VL m c main_v0)) () defs₀ 𝒱₀ L lv)).map Pipeline.RDat.Seg.prog = [
          Prog.lift (.customCall (Pipeline.entry 0) ()),
          Prog.lift (.customCall (Pipeline.entry 1) ()) ] from rfl]
      exact .rfl)
    (by simp only [Pipeline.RDat.Seg.pipes_host, Pipeline.RDat.Seg.pipes_region, Pipeline.RDat.Seg.pipes_nil]; decide)
    (O₀ := 0) (hL := fun _ _ => rfl) (G := Gall (F := F))
    (u₀ := (init₀, init₀))
    (hu₀ := by
      have hG : iprop((bigSep Finset.univ fun c : Dev nD => bigSep Finset.univ fun p => Pipeline.cellsGhost (Pipeline.pin (pcfgs (F := F)) adm) (embR : Emb (UR sig nD τ) 𝕄) p c)
            ∗ (bigSep Finset.univ fun c : Dev nD => bigSep Finset.univ fun p => (Pipeline.toksInit (Pipeline.pin (pcfgs (F := F)) adm) (embR : Emb (UR sig nD τ) 𝕄) p c : sProp 𝕄)))
          ⊢ bigSep Finset.univ (Gall (F := F)) := by
        rw [← bigSep_sep']
      iintro Hu
      ihave H := (ownU_pair (nD := nD) (τ := τ) (sig := sig) (Ix := Unit) (Val := Elt F) (Name := ℕ) (Lvl := ℕ) init₀ init₀) $$ Hu
      icases H with ⟨HL, HR⟩
      imod (Pipeline.fund_ghost (Pipeline.pin (pcfgs (F := F)) adm) (embR : Emb (UR sig nD τ) 𝕄) cellOf_inj) $$ HR with ⟨Hg, Ht⟩
      imodintro
      isplitl [HL]; · iexact HL
      iapply hG
      isplitl [Hg]; · iexact Hg
      iexact Ht)
    (T₀ := T₀ m) (Tₙ := Tₙ m)
    (hch := ⟨fun _ => .rfl, fun _ => .rfl, fun _ => .rfl⟩)
    (hinit := by
      refine Pipeline.initEach L lv fun c => ?_
      iintro ⟨⟨Hh, -, HO, -, Hp, HG⟩, -⟩
      imodintro
      isplitl [Hh]; · iexact Hh
      isplitl [Hp HO]
      · isplitl [Hp]; · iexists _; iexact Hp
        iexists ∅; iexact HO
      iapply (G1_of_Gall (F := F) c); iexact HG)
    (QY := fun c s => s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2))
    (hfin := fun c s' => by
      iintro ⟨⟨⟨H0, H1, H2⟩, -⟩, HSI⟩
      icombine HSI H0 gives %h0
      icombine HSI H1 gives %h1
      icombine HSI H2 gives %h2
      imodintro
      isplitr
      · ipureintro
        exact ⟨Buf.eq_of_forall_mem_univ h0, Buf.eq_of_forall_mem_univ h1, Buf.eq_of_forall_mem_univ h2⟩
      · iexact HSI)
    (hQ := fun _ h => h)

/-- info: 'Cert.Proof.KernelFrame.frame' depends on axioms: [propext, Classical.choice, Quot.sound] -/
#guard_msgs in #print axioms frame

end Cert.Proof.KernelFrame

end
-- ==== Proof.Reg0Runs.lean ====
/-
  Region 0 of the idealized kernel: one tiled product block·blockᵀ accumulated over the grid's second axis in a
  scratch buffer. This module holds what the three control cases share — the two branch conditions in closed form
  over the grid, where the output window is idle, the staging memrefs — and the body's run in each case:
  (A) k = 0: the scratch is zeroed, then the block product is added; (B) 0 < k < 15: the block product is added to what
  the point before left; (C) k = 15: as (B), and the scratch is copied into the output window's buffer.
-/
import proofs.«124964_j67465346285598_2_alg».proof.Proof.Gen.KernelIdeal.Launch
import proofs.«124964_j67465346285598_2_alg».proof.Proof.Gen.KernelIdeal.Skeleton
import proofs.«124964_j67465346285598_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The body's two branch conditions over the grid -/

/-- `k = 0`: the accumulator is zeroed. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 16 = 0 :=
  (by decide +kernel : ∀ t : Fin grid0.N, cond0_0 (grid0.coords t) ↔ t.val % 16 = 0)

/-- `k = 15`: the accumulator is copied out. -/
abbrev cond0_1 (i : grid0.Coords) : Prop := k0_cond2 i = 1#1
theorem hcond0_1 : ∀ t : Fin cfg0.N, cond0_1 (grid0.coords t) ↔ t.val % 16 = 15 :=
  (by decide +kernel : ∀ t : Fin grid0.N, cond0_1 (grid0.coords t) ↔ t.val % 16 = 15)

/-- The output window is idle exactly where `k ≠ 15`, and is written back exactly where `k = 15`. -/
theorem idle0_2_iff : ∀ t : Fin cfg0.N, cfg0.idle 2 (grid0.coords t) = true ↔ ¬ t.val % 16 = 15 :=
  (by decide +kernel : ∀ t : Fin grid0.N, cfg0.idle 2 (grid0.coords t) = true ↔ ¬ t.val % 16 = 15)
theorem live0_0 : ∀ t : Fin cfg0.N, cfg0.idle 0 (grid0.coords t) = false := by decide +kernel
theorem live0_1 : ∀ t : Fin cfg0.N, cfg0.idle 1 (grid0.coords t) = false := by decide +kernel

/-! ## The memrefs the body is called with -/

abbrev ms0_0 (t : Fin cfg0.N) : Memref sig .tc .vmem S64x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4736x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S64x4736 .f32 := win0_2.stage (cfg0.slots t 2)
abbrev hs0_2 (t : Fin cfg0.N) : (ms0_2 t).IsWhole := hstage0_2 ((cfg0.slots t 2).cast nbuf0_2)
/-- The accumulator: a whole scoped buffer of the kernel's own. -/
abbrev scM0 : Memref sig .tc .vmem S64x4736 .f32 := Memref.whole cc0_scratch0

/-- The region's invariant with the accumulator taken out of the scoped rest. -/
theorem PhiA0_eq (c : Dev nD) :
    (Pipeline.ΦA spec0 c : sProp 𝕄)
      = iprop(iprop((∃ d, owns (c : Thread nD τ) scM0 fullShare d) ∗ (∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f)) ∗ (∃ r, prngReg c r)) := by
  unfold Pipeline.ΦA; rw [scopedRest0_eq]; simp only [scM0, owns_whole]; try rfl

/-! ## The body's run, case by case -/

set_option maxHeartbeats 2000000 in
/-- Case A (`k = 0`, not the last step): the pieces the accumulator ends with, and the run. -/
noncomputable def kernelRun0_A (c : Dev nD) (i : grid0.Coords) (arg2 : Memref sig .tc .vmem S64x512 .f32) (harg2 : arg2.IsWhole) (arg3 : Memref sig .tc .vmem S4736x512 .f32) (harg3 : arg3.IsWhole) (arg4 : Memref sig .tc .vmem S64x4736 .f32) (harg4 : arg4.IsWhole) (arg5 : Memref sig .tc .vmem S64x4736 .f32) (harg5 : arg5.IsWhole) (hc0 : cond0_0 i) (hc1 : ¬cond0_1 i)
    (x0 : Vec F S64x512 .f32) (x1 : Vec F S4736x512 .f32) :
    { LS0 : List (View.Piece (Elt F) S64x4736 .f32) //
      ∀ (xi2 : Vec F S64x4736 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__matmul_bT_kernel i arg2 harg2 arg3 harg3 arg4 harg4 arg5 harg5) K } := by
  refine ⟨?_, fun xi2 E K => ?run⟩
  case run =>
    simp only [cc0__matmul_bT_kernel_eq_skeleton]; unfold cc0__matmul_bT_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 2000000 in
/-- Case B (`0 < k < 15`): the accumulator arrives at what the point before left, `xs`. -/
noncomputable def kernelRun0_B (c : Dev nD) (i : grid0.Coords) (arg2 : Memref sig .tc .vmem S64x512 .f32) (harg2 : arg2.IsWhole) (arg3 : Memref sig .tc .vmem S4736x512 .f32) (harg3 : arg3.IsWhole) (arg4 : Memref sig .tc .vmem S64x4736 .f32) (harg4 : arg4.IsWhole) (arg5 : Memref sig .tc .vmem S64x4736 .f32) (harg5 : arg5.IsWhole) (hc0 : ¬cond0_0 i) (hc1 : ¬cond0_1 i)
    (x0 : Vec F S64x512 .f32) (x1 : Vec F S4736x512 .f32) (xs : Vec F S64x4736 .f32) :
    { LS0 : List (View.Piece (Elt F) S64x4736 .f32) //
      ∀ (xi2 : Vec F S64x4736 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__matmul_bT_kernel i arg2 harg2 arg3 harg3 arg4 harg4 arg5 harg5) K } := by
  refine ⟨?_, fun xi2 E K => ?run⟩
  case run =>
    simp only [cc0__matmul_bT_kernel_eq_skeleton]; unfold cc0__matmul_bT_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 2000000 in
/-- Case C (`k = 15`): as case B, and the accumulator is copied into the output window's buffer. -/
noncomputable def kernelRun0_C (c : Dev nD) (i : grid0.Coords) (arg2 : Memref sig .tc .vmem S64x512 .f32) (harg2 : arg2.IsWhole) (arg3 : Memref sig .tc .vmem S4736x512 .f32) (harg3 : arg3.IsWhole) (arg4 : Memref sig .tc .vmem S64x4736 .f32) (harg4 : arg4.IsWhole) (arg5 : Memref sig .tc .vmem S64x4736 .f32) (harg5 : arg5.IsWhole) (hc0 : ¬cond0_0 i) (hc1 : cond0_1 i)
    (x0 : Vec F S64x512 .f32) (x1 : Vec F S4736x512 .f32) (xs : Vec F S64x4736 .f32) :
    Σ' (L2 : List (View.Piece (Elt F) S64x4736 .f32)), { LS0 : List (View.Piece (Elt F) S64x4736 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__matmul_bT_kernel i arg2 harg2 arg3 harg3 arg4 harg4 arg5 harg5) K } := by
  refine ⟨?_, ?_, fun E K => ?run⟩
  case run =>
    simp only [cc0__matmul_bT_kernel_eq_skeleton]; unfold cc0__matmul_bT_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    iexists _; iexact HS0

end Cert.KernelIdeal.Hand

end
-- ==== Proof.Reg0Pieces.lean ====
/-
  What the body's stores leave, read back as values: in every case the accumulator ends at ONE step of the accumulation
  (`k0_pay2`) applied to the two input blocks and to what it held before — the zero splat at the first step —, and at the
  last step the output window's buffer ends at the same value.
-/
import proofs.«124964_j67465346285598_2_alg».proof.Proof.Reg0Runs
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl

/-! ## Case A -/

def sout0_A (c : Dev nD) (i : grid0.Coords) (arg2 : Memref sig .tc .vmem S64x512 .f32) (harg2 : arg2.IsWhole) (arg3 : Memref sig .tc .vmem S4736x512 .f32) (harg3 : arg3.IsWhole) (arg4 : Memref sig .tc .vmem S64x4736 .f32) (harg4 : arg4.IsWhole) (arg5 : Memref sig .tc .vmem S64x4736 .f32) (harg5 : arg5.IsWhole) (hc0 : cond0_0 i) (hc1 : ¬cond0_1 i)
    (x0 : Vec F S64x512 .f32) (x1 : Vec F S4736x512 .f32) : Vec F S64x4736 .f32 :=
  scM0.view.read (Elt F) (scM0.view.writes (Elt F) scM0.view.junk (kernelRun0_A c i arg2 harg2 arg3 harg3 arg4 harg4 arg5 harg5 hc0 hc1 x0 x1).1)

theorem scover0_A (c : Dev nD) (i : grid0.Coords) (arg2 : Memref sig .tc .vmem S64x512 .f32) (harg2 : arg2.IsWhole) (arg3 : Memref sig .tc .vmem S4736x512 .f32) (harg3 : arg3.IsWhole) (arg4 : Memref sig .tc .vmem S64x4736 .f32) (harg4 : arg4.IsWhole) (arg5 : Memref sig .tc .vmem S64x4736 .f32) (harg5 : arg5.IsWhole) (hc0 : cond0_0 i) (hc1 : ¬cond0_1 i)
    (x0 : Vec F S64x512 .f32) (x1 : Vec F S4736x512 .f32) (y : S64x4736.Idx) :
    ∃ pc ∈ (kernelRun0_A c i arg2 harg2 arg3 harg3 arg4 harg4 arg5 harg5 hc0 hc1 x0 x1).1, y ∈ pc.1.set :=
  View.cover_of_tiledL (kernelRun0_A c i arg2 harg2 arg3 harg3 arg4 harg4 arg5 harg5 hc0 hc1 x0 x1).1 S64x4736.size (by sl_kernel_rfl) y

theorem sout0_A_eq (c : Dev nD) (i : grid0.Coords) (arg2 : Memref sig .tc .vmem S64x512 .f32) (harg2 : arg2.IsWhole) (arg3 : Memref sig .tc .vmem S4736x512 .f32) (harg3 : arg3.IsWhole) (arg4 : Memref sig .tc .vmem S64x4736 .f32) (harg4 : arg4.IsWhole) (arg5 : Memref sig .tc .vmem S64x4736 .f32) (harg5 : arg5.IsWhole) (hc0 : cond0_0 i) (hc1 : ¬cond0_1 i)
    (x0 : Vec F S64x512 .f32) (x1 : Vec F S4736x512 .f32) :
    sout0_A c i arg2 harg2 arg3 harg3 arg4 harg4 arg5 harg5 hc0 hc1 x0 x1 = k0_pay2 x0 x1 (k0_pay1 (F := F)) := by
  unfold sout0_A
  rw [View.read_writes_eq_canon _ _ _ (scover0_A c i arg2 harg2 arg3 harg3 arg4 harg4 arg5 harg5 hc0 hc1 x0 x1)]
  unfold kernelRun0_A
  dsimp only
  sl_unfold_words
  rw [View.canon_cons_unit_zero hz2]
  simp only [View.readCov_unit_zero (S := S64x4736) _ hz2, View.readAt_eq_ld, harg2.read_unread, harg3.read_unread, View.ld_unit_zero (S := S64x512) hz2, View.ld_unit_zero (S := S4736x512) hz2, View.ld_unit_zero (S := S64x4736) hz2]

/-! ## Case B -/

def sout0_B (c : Dev nD) (i : grid0.Coords) (arg2 : Memref sig .tc .vmem S64x512 .f32) (harg2 : arg2.IsWhole) (arg3 : Memref sig .tc .vmem S4736x512 .f32) (harg3 : arg3.IsWhole) (arg4 : Memref sig .tc .vmem S64x4736 .f32) (harg4 : arg4.IsWhole) (arg5 : Memref sig .tc .vmem S64x4736 .f32) (harg5 : arg5.IsWhole) (hc0 : ¬cond0_0 i) (hc1 : ¬cond0_1 i)
    (x0 : Vec F S64x512 .f32) (x1 : Vec F S4736x512 .f32) (xs : Vec F S64x4736 .f32) : Vec F S64x4736 .f32 :=
  scM0.view.read (Elt F) (scM0.view.writes (Elt F) scM0.view.junk (kernelRun0_B c i arg2 harg2 arg3 harg3 arg4 harg4 arg5 harg5 hc0 hc1 x0 x1 xs).1)

theorem scover0_B (c : Dev nD) (i : grid0.Coords) (arg2 : Memref sig .tc .vmem S64x512 .f32) (harg2 : arg2.IsWhole) (arg3 : Memref sig .tc .vmem S4736x512 .f32) (harg3 : arg3.IsWhole) (arg4 : Memref sig .tc .vmem S64x4736 .f32) (harg4 : arg4.IsWhole) (arg5 : Memref sig .tc .vmem S64x4736 .f32) (harg5 : arg5.IsWhole) (hc0 : ¬cond0_0 i) (hc1 : ¬cond0_1 i)
    (x0 : Vec F S64x512 .f32) (x1 : Vec F S4736x512 .f32) (xs : Vec F S64x4736 .f32) (y : S64x4736.Idx) :
    ∃ pc ∈ (kernelRun0_B c i arg2 harg2 arg3 harg3 arg4 harg4 arg5 harg5 hc0 hc1 x0 x1 xs).1, y ∈ pc.1.set :=
  View.cover_of_tiledL (kernelRun0_B c i arg2 harg2 arg3 harg3 arg4 harg4 arg5 harg5 hc0 hc1 x0 x1 xs).1 S64x4736.size (by sl_kernel_rfl) y

theorem sout0_B_eq (c : Dev nD) (i : grid0.Coords) (arg2 : Memref sig .tc .vmem S64x512 .f32) (harg2 : arg2.IsWhole) (arg3 : Memref sig .tc .vmem S4736x512 .f32) (harg3 : arg3.IsWhole) (arg4 : Memref sig .tc .vmem S64x4736 .f32) (harg4 : arg4.IsWhole) (arg5 : Memref sig .tc .vmem S64x4736 .f32) (harg5 : arg5.IsWhole) (hc0 : ¬cond0_0 i) (hc1 : ¬cond0_1 i)
    (x0 : Vec F S64x512 .f32) (x1 : Vec F S4736x512 .f32) (xs : Vec F S64x4736 .f32) :
    sout0_B c i arg2 harg2 arg3 harg3 arg4 harg4 arg5 harg5 hc0 hc1 x0 x1 xs = k0_pay2 x0 x1 xs := by
  unfold sout0_B
  rw [View.read_writes_eq_canon _ _ _ (scover0_B c i arg2 harg2 arg3 harg3 arg4 harg4 arg5 harg5 hc0 hc1 x0 x1 xs)]
  unfold kernelRun0_B
  dsimp only
  sl_unfold_words
  rw [View.canon_unit_zero hz2]
  simp only [View.readAt_eq_ld, harg2.read_unread, harg3.read_unread, harg5.read_unread, View.ld_unit_zero (S := S64x512) hz2, View.ld_unit_zero (S := S4736x512) hz2, View.ld_unit_zero (S := S64x4736) hz2]

/-! ## Case C -/

def sout0_C (c : Dev nD) (i : grid0.Coords) (arg2 : Memref sig .tc .vmem S64x512 .f32) (harg2 : arg2.IsWhole) (arg3 : Memref sig .tc .vmem S4736x512 .f32) (harg3 : arg3.IsWhole) (arg4 : Memref sig .tc .vmem S64x4736 .f32) (harg4 : arg4.IsWhole) (arg5 : Memref sig .tc .vmem S64x4736 .f32) (harg5 : arg5.IsWhole) (hc0 : ¬cond0_0 i) (hc1 : cond0_1 i)
    (x0 : Vec F S64x512 .f32) (x1 : Vec F S4736x512 .f32) (xs : Vec F S64x4736 .f32) : Vec F S64x4736 .f32 :=
  scM0.view.read (Elt F) (scM0.view.writes (Elt F) scM0.view.junk (kernelRun0_C c i arg2 harg2 arg3 harg3 arg4 harg4 arg5 harg5 hc0 hc1 x0 x1 xs).2.1)

theorem scover0_C (c : Dev nD) (i : grid0.Coords) (arg2 : Memref sig .tc .vmem S64x512 .f32) (harg2 : arg2.IsWhole) (arg3 : Memref sig .tc .vmem S4736x512 .f32) (harg3 : arg3.IsWhole) (arg4 : Memref sig .tc .vmem S64x4736 .f32) (harg4 : arg4.IsWhole) (arg5 : Memref sig .tc .vmem S64x4736 .f32) (harg5 : arg5.IsWhole) (hc0 : ¬cond0_0 i) (hc1 : cond0_1 i)
    (x0 : Vec F S64x512 .f32) (x1 : Vec F S4736x512 .f32) (xs : Vec F S64x4736 .f32) (y : S64x4736.Idx) :
    ∃ pc ∈ (kernelRun0_C c i arg2 harg2 arg3 harg3 arg4 harg4 arg5 harg5 hc0 hc1 x0 x1 xs).2.1, y ∈ pc.1.set :=
  View.cover_of_tiledL (kernelRun0_C c i arg2 harg2 arg3 harg3 arg4 harg4 arg5 harg5 hc0 hc1 x0 x1 xs).2.1 S64x4736.size (by sl_kernel_rfl) y

theorem sout0_C_eq (c : Dev nD) (i : grid0.Coords) (arg2 : Memref sig .tc .vmem S64x512 .f32) (harg2 : arg2.IsWhole) (arg3 : Memref sig .tc .vmem S4736x512 .f32) (harg3 : arg3.IsWhole) (arg4 : Memref sig .tc .vmem S64x4736 .f32) (harg4 : arg4.IsWhole) (arg5 : Memref sig .tc .vmem S64x4736 .f32) (harg5 : arg5.IsWhole) (hc0 : ¬cond0_0 i) (hc1 : cond0_1 i)
    (x0 : Vec F S64x512 .f32) (x1 : Vec F S4736x512 .f32) (xs : Vec F S64x4736 .f32) :
    sout0_C c i arg2 harg2 arg3 harg3 arg4 harg4 arg5 harg5 hc0 hc1 x0 x1 xs = k0_pay2 x0 x1 xs := by
  unfold sout0_C
  rw [View.read_writes_eq_canon _ _ _ (scover0_C c i arg2 harg2 arg3 harg3 arg4 harg4 arg5 harg5 hc0 hc1 x0 x1 xs)]
  unfold kernelRun0_C
  dsimp only
  sl_unfold_words
  rw [View.canon_unit_zero hz2]
  simp only [View.readAt_eq_ld, harg2.read_unread, harg3.read_unread, harg5.read_unread, View.ld_unit_zero (S := S64x512) hz2, View.ld_unit_zero (S := S4736x512) hz2, View.ld_unit_zero (S := S64x4736) hz2]

/-- One staging buffer of the output window, through which its contents are stated. -/
abbrev VO0_2 : View sig .tc .vmem S64x4736 .f32 := (Memref.whole cc0_stg2_0 : Memref sig .tc .vmem S64x4736 .f32).view

def out0_C (c : Dev nD) (i : grid0.Coords) (arg2 : Memref sig .tc .vmem S64x512 .f32) (harg2 : arg2.IsWhole) (arg3 : Memref sig .tc .vmem S4736x512 .f32) (harg3 : arg3.IsWhole) (arg4 : Memref sig .tc .vmem S64x4736 .f32) (harg4 : arg4.IsWhole) (arg5 : Memref sig .tc .vmem S64x4736 .f32) (harg5 : arg5.IsWhole) (hc0 : ¬cond0_0 i) (hc1 : cond0_1 i)
    (x0 : Vec F S64x512 .f32) (x1 : Vec F S4736x512 .f32) (xs : Vec F S64x4736 .f32) : Vec F S64x4736 .f32 :=
  VO0_2.read (Elt F) (VO0_2.writes (Elt F) VO0_2.junk (kernelRun0_C c i arg2 harg2 arg3 harg3 arg4 harg4 arg5 harg5 hc0 hc1 x0 x1 xs).1)

theorem cover0_C (c : Dev nD) (i : grid0.Coords) (arg2 : Memref sig .tc .vmem S64x512 .f32) (harg2 : arg2.IsWhole) (arg3 : Memref sig .tc .vmem S4736x512 .f32) (harg3 : arg3.IsWhole) (arg4 : Memref sig .tc .vmem S64x4736 .f32) (harg4 : arg4.IsWhole) (arg5 : Memref sig .tc .vmem S64x4736 .f32) (harg5 : arg5.IsWhole) (hc0 : ¬cond0_0 i) (hc1 : cond0_1 i)
    (x0 : Vec F S64x512 .f32) (x1 : Vec F S4736x512 .f32) (xs : Vec F S64x4736 .f32) (y : S64x4736.Idx) :
    ∃ pc ∈ (kernelRun0_C c i arg2 harg2 arg3 harg3 arg4 harg4 arg5 harg5 hc0 hc1 x0 x1 xs).1, y ∈ pc.1.set :=
  View.cover_of_tiledL (kernelRun0_C c i arg2 harg2 arg3 harg3 arg4 harg4 arg5 harg5 hc0 hc1 x0 x1 xs).1 S64x4736.size (by sl_kernel_rfl) y

theorem out0_C_eq (c : Dev nD) (i : grid0.Coords) (arg2 : Memref sig .tc .vmem S64x512 .f32) (harg2 : arg2.IsWhole) (arg3 : Memref sig .tc .vmem S4736x512 .f32) (harg3 : arg3.IsWhole) (arg4 : Memref sig .tc .vmem S64x4736 .f32) (harg4 : arg4.IsWhole) (arg5 : Memref sig .tc .vmem S64x4736 .f32) (harg5 : arg5.IsWhole) (hc0 : ¬cond0_0 i) (hc1 : cond0_1 i)
    (x0 : Vec F S64x512 .f32) (x1 : Vec F S4736x512 .f32) (xs : Vec F S64x4736 .f32) :
    out0_C c i arg2 harg2 arg3 harg3 arg4 harg4 arg5 harg5 hc0 hc1 x0 x1 xs = k0_pay2 x0 x1 xs := by
  unfold out0_C
  rw [View.read_writes_eq_canon _ _ _ (cover0_C c i arg2 harg2 arg3 harg3 arg4 harg4 arg5 harg5 hc0 hc1 x0 x1 xs)]
  unfold kernelRun0_C
  dsimp only
  sl_unfold_words
  rw [View.canon_unit_zero hz2]
  simp only [View.readCov_unit_zero (S := S64x4736) _ hz2, View.readAt_eq_ld, harg2.read_unread, harg3.read_unread, harg5.read_unread, View.ld_unit_zero (S := S64x512) hz2, View.ld_unit_zero (S := S4736x512) hz2, View.ld_unit_zero (S := S64x4736) hz2]

end Cert.KernelIdeal.Hand

end
-- ==== Proof.Reg0Math.lean ====
/-
  The arithmetic of region 0's body on the extended reals: one step of the accumulation adds, at row r and column q of
  the block, the product of row r of the left block with row q of the right block (the right operand enters
  transposed). In particular an entry of the result reads only ROW q of the right block.
-/
import proofs.«124964_j67465346285598_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Hand

open Cert.KernelIdeal Cert.KernelIdeal.Gen
open Idealize.ShloMosaic Idealize.ShloMosaic.TcCoe Idealize.ShloMosaic.ValueIdx

theorem lhs0_0 (i : S64x4736.Idx) (q : dot_S64x512_S4736x512_S64x4736_1_1_0_0_n_n.contr.Idx) :
    (dot_S64x512_S4736x512_S64x4736_1_1_0_0_n_n.lhsIdx i q 0).val = (i 0).val := by
  unfold DotDims.lhsIdx
  rw [dif_neg (show ¬(0 : Fin S64x512.rank) ∈ dot_S64x512_S4736x512_S64x4736_1_1_0_0_n_n.lhsBatch by decide), dif_pos (show (0 : Fin S64x512.rank) ∈ dot_S64x512_S4736x512_S64x4736_1_1_0_0_n_n.lhsNonContracting by decide)]
  rfl
theorem lhs0_1 (i : S64x4736.Idx) (q : dot_S64x512_S4736x512_S64x4736_1_1_0_0_n_n.contr.Idx) :
    (dot_S64x512_S4736x512_S64x4736_1_1_0_0_n_n.lhsIdx i q 1).val = (q ⟨0, by decide⟩).val :=
  dot_S64x512_S4736x512_S64x4736_1_1_0_0_n_n.lhsIdx_val_of_single rfl i q
theorem rhs0_1 (i : S64x4736.Idx) (q : dot_S64x512_S4736x512_S64x4736_1_1_0_0_n_n.contr.Idx) :
    (dot_S64x512_S4736x512_S64x4736_1_1_0_0_n_n.rhsIdx i q 1).val = (q ⟨0, by decide⟩).val :=
  dot_S64x512_S4736x512_S64x4736_1_1_0_0_n_n.rhsIdx_val_of_single rfl i q
theorem rhs0_0 (i : S64x4736.Idx) (q : dot_S64x512_S4736x512_S64x4736_1_1_0_0_n_n.contr.Idx) :
    (dot_S64x512_S4736x512_S64x4736_1_1_0_0_n_n.rhsIdx i q 0).val = (i 1).val := by
  unfold DotDims.rhsIdx
  rw [dif_neg (show ¬(0 : Fin S4736x512.rank) ∈ dot_S64x512_S4736x512_S64x4736_1_1_0_0_n_n.rhsBatch by decide), dif_pos (show (0 : Fin S4736x512.rank) ∈ dot_S64x512_S4736x512_S64x4736_1_1_0_0_n_n.rhsNonContracting by decide)]
  rfl

/-- One accumulation step at an entry. -/
theorem pay2_apply (x0 : Vec Ideal S64x512 .f32) (x1 : Vec Ideal S4736x512 .f32) (a : Vec Ideal S64x4736 .f32) (r : Fin 64) (q : Fin 4736) :
    k0_pay2 (F := Ideal) x0 x1 a (ix2 r q) = a (ix2 r q) + ∑ kk : Fin 512, x0 (ix2 r kk) * x1 (ix2 q kk) := by
  unfold k0_pay2
  rw [shapeCast_self]
  refine (addf_apply _ _ _).trans ?_
  refine congrArg (a (ix2 r q) + ·) ?_
  simp only [matmul]
  rw [Ideal.matmul_constant_zero_apply, ← Equiv.sum_comp (ValueIdx.contrEquiv1 dot_S64x512_S4736x512_S64x4736_1_1_0_0_n_n 512 rfl rfl).symm]
  refine Finset.sum_congr rfl fun k _ => ?_
  have hk := ValueIdx.contrEquiv1_symm_val dot_S64x512_S4736x512_S64x4736_1_1_0_0_n_n 512 rfl rfl k
  have el : dot_S64x512_S4736x512_S64x4736_1_1_0_0_n_n.lhsIdx (ix2 r q) ((ValueIdx.contrEquiv1 dot_S64x512_S4736x512_S64x4736_1_1_0_0_n_n 512 rfl rfl).symm k) = ix2 r k := funext fun b => Fin.ext (by
    match b with
    | ⟨0, _⟩ => exact lhs0_0 _ _
    | ⟨1, _⟩ => exact (lhs0_1 _ _).trans hk)
  have er : dot_S64x512_S4736x512_S64x4736_1_1_0_0_n_n.rhsIdx (ix2 r q) ((ValueIdx.contrEquiv1 dot_S64x512_S4736x512_S64x4736_1_1_0_0_n_n 512 rfl rfl).symm k) = ix2 q k := funext fun b => Fin.ext (by
    match b with
    | ⟨0, _⟩ => exact rhs0_0 _ _
    | ⟨1, _⟩ => exact (rhs0_1 _ _).trans hk)
  rw [el, er]
  rfl

/-- The zeroed accumulator. -/
theorem pay1_apply (j : S64x4736.Idx) : k0_pay1 (F := Ideal) j = 0 := by
  unfold k0_pay1
  rw [shapeCast_self]
  exact Ideal.ofBits_zero_f32

end Cert.KernelIdeal.Hand

end
-- ==== Proof.Reg0Data.lean ====
/-
  Region 0's proof data on the extended reals. The right operand's last row block overhangs its array: the rows past the
  array's end hold words nothing names, and they reach the accumulator's columns of the same numbers. So the data
  name the accumulator only on the columns inside the result array: `accS` is the accumulation run on the right block
  padded with ZEROS, and the invariant says the accumulator agrees with it on every column the write-back moves.
-/
import proofs.«124964_j67465346285598_2_alg».proof.Proof.Reg0Pieces
import proofs.«124964_j67465346285598_2_alg».proof.Proof.Reg0Math

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

open Idealize.ShloMosaic.ValueIdx

-- from here on at the extended reals
variable (V : (c : Dev nD) → (b : Ref sig .tc) → Buf (Elt Ideal) ((c : Thread nD τ).loc b))

local notation "𝕀" => MT nD τ sig Unit (Elt Ideal) ℕ (UR sig nD τ) ℕ

/-- Window `w`'s block at point `t`, read off its array as the region finds it: the part inside the array. -/
def iblk0 (c : Dev nD) (w : Fin cfg0.W) (t : Fin cfg0.N) : ((cfg0.win w).xblock (cfg0.grid.coords t)).Idx → Elt Ideal (cfg0.win w).elt :=
  ((cfg0.win w).blk t).view.read (Elt Ideal) (V c (Pipeline.arrRef spec0 w))

/-- The right block at point `t`, zero on the rows past the array's end. -/
def blk1z (c : Dev nD) (t : Fin cfg0.N) : Vec Ideal S4736x512 .f32 :=
  (cfg0.win 1).fill (cfg0.grid.coords t) (fun _ => (0 : EReal)) (iblk0 V c 1 t)

/-- The accumulation on the zero-padded blocks, point by point: restarted from the zero splat where `k = 0`. -/
def accS (c : Dev nD) : (n : ℕ) → n < cfg0.N → Vec Ideal S64x4736 .f32
  | 0, hn => k0_pay2 (iblk0 V c 0 ⟨0, hn⟩) (blk1z V c ⟨0, hn⟩) (k0_pay1 (F := Ideal))
  | n + 1, hn => k0_pay2 (iblk0 V c 0 ⟨n + 1, hn⟩) (blk1z V c ⟨n + 1, hn⟩)
      (if (n + 1) % 16 = 0 then k0_pay1 (F := Ideal) else accS c n (Nat.lt_of_succ_lt hn))

theorem accS_reset (c : Dev nD) (t : Fin cfg0.N) (h : t.val % 16 = 0) :
    accS V c t.val t.isLt = k0_pay2 (iblk0 V c 0 t) (blk1z V c t) (k0_pay1 (F := Ideal)) := by
  obtain ⟨n, hn⟩ := t
  cases n with
  | zero => rfl
  | succ n => exact congrArg (k0_pay2 _ _) (if_pos h)

theorem accS_step (c : Dev nD) (t : Fin cfg0.N) (h : ¬t.val % 16 = 0) :
    accS V c t.val t.isLt = k0_pay2 (iblk0 V c 0 t) (blk1z V c t) (accS V c (t.val - 1) (Nat.lt_of_le_of_lt (Nat.sub_le _ _) t.isLt)) := by
  obtain ⟨n, hn⟩ := t
  cases n with
  | zero => exact absurd (Nat.zero_mod _) h
  | succ n => exact congrArg (k0_pay2 _ _) (if_neg h)

/-- The scoped buffers of the other region, which this region never touches. -/
abbrev rest0 (c : Dev nD) : sProp 𝕀 :=
  iprop((∃ f : Buf (Elt Ideal) ((c : Thread nD τ).loc cc1_stg0_0), ((c : Thread nD τ).loc cc1_stg0_0) ↦{fullShare} f) ∗ (∃ f : Buf (Elt Ideal) ((c : Thread nD τ).loc cc1_stg1_0), ((c : Thread nD τ).loc cc1_stg1_0) ↦{fullShare} f) ∗ (∃ f : Buf (Elt Ideal) ((c : Thread nD τ).loc cc1_stg1_1), ((c : Thread nD τ).loc cc1_stg1_1) ↦{fullShare} f) ∗ (∃ f : Buf (Elt Ideal) ((c : Thread nD τ).loc cc1_stg2_0), ((c : Thread nD τ).loc cc1_stg2_0) ↦{fullShare} f) ∗ (∃ f : Buf (Elt Ideal) ((c : Thread nD τ).loc cc1_stg2_1), ((c : Thread nD τ).loc cc1_stg2_1) ↦{fullShare} f) ∗ (∃ f : Buf (Elt Ideal) ((c : Thread nD τ).loc cc1_scratch0), ((c : Thread nD τ).loc cc1_scratch0) ↦{fullShare} f))

theorem PhiA0_eq' (c : Dev nD) :
    (Pipeline.ΦA spec0 c : sProp 𝕀) = iprop(iprop((∃ d, owns (c : Thread nD τ) scM0 fullShare d) ∗ rest0 c) ∗ (∃ r, prngReg c r)) :=
  PhiA0_eq c

/-- The accumulator agrees with the zero-padded accumulation on the columns inside the result array. -/
def AccOk (c : Dev nD) (n : ℕ) (hn : n < cfg0.N) (acc : Vec Ideal S64x4736 .f32) : Prop :=
  ∀ j : S64x4736.Idx, (cfg0.win 2).moved (cfg0.grid.coords ⟨n, hn⟩) j = true → acc j = accS V c n hn j

/-- The region's invariant before position `n`: at first the scoped rest at anything; afterwards the accumulator at
    contents that agree with `accS` of the point before on the columns inside the array. -/
def PhiS (c : Dev nD) : (n : ℕ) → n ≤ cfg0.N → sProp 𝕀
  | 0, _ => Pipeline.ΦA spec0 c
  | n + 1, hn => iprop(iprop((∃ acc, ⌜AccOk V c n hn acc⌝ ∗ owns (c : Thread nD τ) scM0 fullShare acc) ∗ rest0 c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop((∃ acc, ⌜AccOk V c n hn acc⌝ ∗ owns (c : Thread nD τ) scM0 fullShare acc) ∗ rest0 c) ∗ (∃ r, prngReg c r)) := rfl

theorem PhiS_pos (c : Dev nD) (n : ℕ) (h : n ≤ cfg0.N) (hz : n ≠ 0) :
    PhiS V c n h = iprop(iprop((∃ acc, ⌜AccOk V c (n - 1) (by omega) acc⌝ ∗ owns (c : Thread nD τ) scM0 fullShare acc) ∗ rest0 c) ∗ (∃ r, prngReg c r)) := by
  cases n with
  | zero => exact absurd rfl hz
  | succ n => rfl

/-- The proof data of region 0 on core `c`: the arrays as the region finds them; after the body the left window's buffer
    at its block, the right window's at its zero-padded block (stated, the window being cut, only on the rows inside the
    array), the output window's at the accumulation (likewise only on the columns inside the array). -/
def dat0 (c : Dev nD) : Dat τ (Elt Ideal) Unit ℕ (UR sig nD τ) ℕ cfg0 c where
  A w := V c (Pipeline.arrRef spec0 w)
  after w t := match w with
    | ⟨0, _⟩ => iblk0 V c 0 t
    | ⟨1, _⟩ => blk1z V c t
    | ⟨2, _⟩ => accS V c t.val t.isLt
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = blk1z V c t := by dsimp only [dat0]
theorem after0_2 (c : Dev nD) (t : Fin cfg0.N) : (dat0 V c).after 2 t = accS V c t.val t.isLt := by dsimp only [dat0]

theorem PhiS_castSucc (c : Dev nD) (t : Fin cfg0.N) :
    (dat0 V c).Φ t.castSucc = PhiS V c t.val (Nat.le_of_lt t.isLt) := by
  dsimp only [dat0]; simp only [Fin.coe_castSucc]

end Cert.KernelIdeal.Hand

end
-- ==== Proof.Reg0Body.lean ====
/-
  Region 0's body obligation on the extended reals. At each point the body finds the left block, the right block with
  its overhanging rows at unnamed words, and the accumulator agreeing with the zero-padded accumulation on the columns
  inside the result array; one step keeps that agreement, because an entry (r, q) of a step reads row q of the right
  block only, and row q lies inside the array exactly when column q of the result does.
-/
import proofs.«124964_j67465346285598_2_alg».proof.Proof.Reg0Data

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

open Idealize.ShloMosaic.ValueIdx

variable (V : (c : Dev nD) → (b : Ref sig .tc) → Buf (Elt Ideal) ((c : Thread nD τ).loc b))

local notation "𝕀" => MT nD τ sig Unit (Elt Ideal) ℕ (UR sig nD τ) ℕ

/-! ## Which rows and columns lie inside the arrays -/

/-- At every point the result window keeps all 64 rows and as many columns as the right window keeps rows; the right
    window keeps all 512 columns. -/
theorem xsize_facts : ∀ t : Fin cfg0.N, (cfg0.win 2).xsize (cfg0.grid.coords t) 1 = (cfg0.win 1).xsize (cfg0.grid.coords t) 0
    ∧ (cfg0.win 1).xsize (cfg0.grid.coords t) 1 = 512 :=
  (by decide +kernel : ∀ t : Fin grid0.N, win0_2.xsize (grid0.coords t) 1 = win0_1.xsize (grid0.coords t) 0
    ∧ win0_1.xsize (grid0.coords t) 1 = 512)

/-- Within one accumulation (`k ≠ 0`) the cut is the one of the point before. -/
theorem xsize_prev : ∀ t : Fin cfg0.N, ¬t.val % 16 = 0 → ∀ a : Fin 2,
    (cfg0.win 2).xsize (cfg0.grid.coords ⟨t.val - 1, Nat.lt_of_le_of_lt (Nat.sub_le _ _) t.isLt⟩) a = (cfg0.win 2).xsize (cfg0.grid.coords t) a :=
  (by decide +kernel : ∀ t : Fin grid0.N, ¬t.val % 16 = 0 → ∀ a : Fin 2,
    win0_2.xsize (grid0.coords ⟨t.val - 1, Nat.lt_of_le_of_lt (Nat.sub_le _ _) t.isLt⟩) a = win0_2.xsize (grid0.coords t) a)

theorem moved_21 (t : Fin cfg0.N) (r : Fin 64) (q : Fin 4736) (kk : Fin 512)
    (h : (cfg0.win 2).moved (cfg0.grid.coords t) (ix2 r q) = true) : (cfg0.win 1).moved (cfg0.grid.coords t) (ix2 q kk) = true := by
  rw [Window.moved_iff] at h ⊢
  have h1 := h 1
  obtain ⟨e1, e2⟩ := xsize_facts t
  intro a
  match a with
  | ⟨0, _⟩ => exact lt_of_lt_of_eq h1 e1
  | ⟨1, _⟩ => exact lt_of_lt_of_eq kk.isLt e2.symm

theorem moved_prev (t : Fin cfg0.N) (ht : ¬t.val % 16 = 0) (j : S64x4736.Idx)
    (h : (cfg0.win 2).moved (cfg0.grid.coords t) j = true) :
    (cfg0.win 2).moved (cfg0.grid.coords ⟨t.val - 1, Nat.lt_of_le_of_lt (Nat.sub_le _ _) t.isLt⟩) j = true := by
  rw [Window.moved_iff] at h ⊢
  intro a
  rw [xsize_prev t ht a]; exact h a

/-- Two fillings of one block agree where the transfer moves. -/
theorem fill_eq_of_moved {G : Pipeline.Grid} (w : Window sig G) {α : Type} (i : G.Coords) (d d' : w.block.Idx → α) (g : (w.xblock i).Idx → α)
    (j : w.block.Idx) (h : w.moved i j = true) : w.fill i d g j = w.fill i d' g j := by
  unfold Window.fill; rw [dif_pos h, dif_pos h]

/-- ONE STEP keeps the agreement on the columns inside the array. -/
theorem step_ok (c : Dev nD) (t : Fin cfg0.N) (d1 : Vec Ideal S4736x512 .f32) (acc acc' : Vec Ideal S64x4736 .f32)
    (hacc : ∀ j : S64x4736.Idx, (cfg0.win 2).moved (cfg0.grid.coords t) j = true → acc j = acc' j)
    (j : S64x4736.Idx) (hj : (cfg0.win 2).moved (cfg0.grid.coords t) j = true) :
    k0_pay2 (F := Ideal) (iblk0 V c 0 t) ((cfg0.win 1).fill (cfg0.grid.coords t) d1 (iblk0 V c 1 t)) acc j
      = k0_pay2 (F := Ideal) (iblk0 V c 0 t) (blk1z V c t) acc' j := by
  obtain ⟨r, q, rfl⟩ : ∃ (r : Fin 64) (q : Fin 4736), j = ix2 r q := ⟨j 0, j 1, eq_ix2 j⟩
  rw [pay2_apply, pay2_apply, hacc _ hj]
  refine congrArg (acc' (ix2 r q) + ·) (Finset.sum_congr rfl fun kk _ => ?_)
  have e : (cfg0.win 1).fill (cfg0.grid.coords t) d1 (iblk0 V c 1 t) (ix2 q kk) = blk1z V c t (ix2 q kk) := by
    unfold blk1z
    exact fill_eq_of_moved (cfg0.win 1) _ _ _ _ _ (moved_21 t r q kk hj)
  rw [e]

/-! ## What the body finds -/

theorem before0_0 (c : Dev nD) (t : Fin cfg0.N) (d) : (dat0 V c).before 0 t d = iblk0 V c 0 t := by
  unfold Dat.before; rw [if_pos (fetch0_0 t)]; rfl
theorem before0_1 (c : Dev nD) (t : Fin cfg0.N) (d) :
    (dat0 V c).before 1 t d = (cfg0.win 1).fill (cfg0.grid.coords t) d (iblk0 V c 1 t) := by
  unfold Dat.before; rw [if_pos (fetch0_1 t)]; rfl

/-! ## What the body leaves, window by window -/

theorem leaves0_0 (c : Dev nD) (t : Fin cfg0.N) :
    (dat0 V c).leaves 0 t = owns (c : Thread nD τ) (ms0_0 t) fullShare (iblk0 V c 0 t) := by
  unfold Dat.leaves; rw [live0_0 t, after0_0]
theorem leaves0_1 (c : Dev nD) (t : Fin cfg0.N) :
    (dat0 V c).leaves 1 t = iprop(∃ d, owns (c : Thread nD τ) (ms0_1 t) fullShare ((cfg0.win 1).fill (cfg0.grid.coords t) d (iblk0 V c 1 t))) := by
  unfold Dat.leaves; rw [live0_1 t, after0_1]
  unfold blk1z; simp only [Window.cut_fill]
  rfl
theorem leaves0_2_live (c : Dev nD) (t : Fin cfg0.N) (h : t.val % 16 = 15) :
    (dat0 V c).leaves 2 t = iprop(∃ d, owns (c : Thread nD τ) (ms0_2 t) fullShare ((cfg0.win 2).fill (cfg0.grid.coords t) d ((cfg0.win 2).cut (cfg0.grid.coords t) (accS V c t.val t.isLt)))) := by
  have hi : cfg0.idle 2 (cfg0.grid.coords t) = false := by
    cases hb : cfg0.idle 2 (cfg0.grid.coords t)
    · rfl
    · exact absurd h ((idle0_2_iff t).mp hb)
  unfold Dat.leaves; rw [hi, after0_2]
  rfl
theorem leaves0_2_idle (c : Dev nD) (t : Fin cfg0.N) (h : ¬t.val % 16 = 15) :
    (dat0 V c).leaves 2 t = iprop(∃ d, owns (c : Thread nD τ) (ms0_2 t) fullShare ((dat0 V c).before 2 t d)) :=
  Dat.leaves_idle (dat0 V c) 2 t ((idle0_2_iff t).mpr h)
    (by cases hb : (cfg0.win 2).flush t
        · rfl
        · exact absurd ((flush0_2 t).mp hb) h)

/-! ## The body obligation -/

def bodyPre0 (c : Dev nD) (t : Fin cfg0.N) : sProp 𝕀 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕀 :=
  iprop((dat0 V c).Φ t.succ ∗ (dat0 V c).owesAt () t.succ
    ∗ (dat0 V c).leaves 0 t ∗ (dat0 V c).leaves 1 t ∗ (dat0 V c).leaves 2 t)

set_option maxHeartbeats 4000000 in
theorem sound_body0 (c : Dev nD) (t : Fin cfg0.N) :
    bodyPre0 V c t ⊢ wp frame (wpE (defs₀ (F := Ideal)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS V c (t.val + 1) t.isLt from rfl, PhiS_succ]
  rw [leaves0_0, leaves0_1, PhiS_castSucc]
  have hN : t.val < 32 := lt_of_lt_of_eq t.isLt (show cfg0.N = 32 from N_0)
  by_cases h0 : t.val % 16 = 0
  · -- k = 0: the accumulator restarts from the zero splat
    have h1 : ¬t.val % 16 = 15 := by omega
    have hc0 : cond0_0 (grid0.coords t) := (hcond0_0 t).mpr h0
    have hc1 : ¬cond0_1 (grid0.coords t) := fun h => h1 ((hcond0_1 t).mp h)
    rw [leaves0_2_idle V c t h1]
    have hpre : PhiS V c t.val (Nat.le_of_lt t.isLt) ⊢ (iprop(iprop((∃ d, owns (c : Thread nD τ) scM0 fullShare d) ∗ rest0 c) ∗ (∃ r, prngReg c r)) : sProp 𝕀) := by
      by_cases hz : t.val = 0
      · rw [PhiS_zero V c _ _ hz, PhiA0_eq']
      · rw [PhiS_pos V c _ _ hz]
        iintro ⟨⟨⟨%acc, -, HS⟩, Hr⟩, Hg⟩
        isplitl [HS Hr]
        · isplitl [HS]
          · iexists _; iexact HS
          iexact Hr
        iexact Hg
    iintro ⟨HΦ, Ho, ⟨%d0, H0⟩, ⟨%d1, H1⟩, ⟨%d2, H2⟩⟩
    ihave HΦ' := hpre $$ HΦ
    icases HΦ' with ⟨⟨HS, Hr⟩, Hg⟩
    iapply ((kernelRun0_A c (grid0.coords t) (ms0_0 t) (hs0_0 t) (ms0_1 t) (hs0_1 t) (ms0_2 t) (hs0_2 t) scM0 (Memref.isWhole_whole _) hc0 hc1 (iblk0 V c 0 t) ((cfg0.win 1).fill (cfg0.grid.coords t) d1 (iblk0 V c 1 t))).2 _ Set.univ _)
    isplitl [H0]; · iexact H0
    isplitl [H1]; · iexact H1
    isplitl [H2]; · iexact H2
    isplitl [HS]; · iexact HS
    iintro ⟨H0, H1, H2, ⟨%es, HS⟩⟩
    isplitl [HS Hr Hg]
    · isplitl [HS Hr]
      · isplitl [HS]
        · iexists (sout0_A c (grid0.coords t) (ms0_0 t) (hs0_0 t) (ms0_1 t) (hs0_1 t) (ms0_2 t) (hs0_2 t) scM0 (Memref.isWhole_whole _) hc0 hc1 (iblk0 V c 0 t) ((cfg0.win 1).fill (cfg0.grid.coords t) d1 (iblk0 V c 1 t)))
          isplitr
          · ipureintro
            rw [sout0_A_eq]
            intro j hj
            rw [accS_reset V c t h0]
            exact step_ok V c t d1 _ _ (fun _ _ => rfl) j hj
          · unfold owns; iexists _; isplitr
            swap; · iexact HS
            ipureintro; exact View.read_writes_of_cover _ _ _ _ _ (scover0_A c _ _ _ _ _ _ _ _ _ _ _ _ _)
        iexact Hr
      iexact Hg
    isplitl [Ho]; · iexact Ho
    isplitl [H0]; · iexact H0
    isplitl [H1]; · iexists d1; iexact H1
    iexists d2; iexact H2
  · have hz : t.val ≠ 0 := fun h => h0 (by rw [h])
    have hc0 : ¬cond0_0 (grid0.coords t) := fun h => h0 ((hcond0_0 t).mp h)
    rw [PhiS_pos V c _ _ hz]
    by_cases h1 : t.val % 16 = 15
    · -- k = 15: one more step, then the copy into the output window's buffer
      have hc1 : cond0_1 (grid0.coords t) := (hcond0_1 t).mpr h1
      rw [leaves0_2_live V c t h1]
      iintro ⟨⟨⟨⟨%acc, %hacc, HS⟩, Hr⟩, Hg⟩, Ho, ⟨%d0, H0⟩, ⟨%d1, H1⟩, ⟨%d2, H2⟩⟩
      iapply ((kernelRun0_C c (grid0.coords t) (ms0_0 t) (hs0_0 t) (ms0_1 t) (hs0_1 t) (ms0_2 t) (hs0_2 t) scM0 (Memref.isWhole_whole _) hc0 hc1 (iblk0 V c 0 t) ((cfg0.win 1).fill (cfg0.grid.coords t) d1 (iblk0 V c 1 t)) acc).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      have hstep : ∀ j : S64x4736.Idx, (cfg0.win 2).moved (cfg0.grid.coords t) j = true →
          k0_pay2 (F := Ideal) (iblk0 V c 0 t) ((cfg0.win 1).fill (cfg0.grid.coords t) d1 (iblk0 V c 1 t)) acc j = accS V c t.val t.isLt j := by
        intro j hj
        rw [accS_step V c t h0]
        exact step_ok V c t d1 _ _ (fun j hj => hacc j (moved_prev t h0 j hj)) j hj
      isplitl [HS Hr Hg]
      · isplitl [HS Hr]
        · isplitl [HS]
          · iexists (sout0_C c (grid0.coords t) (ms0_0 t) (hs0_0 t) (ms0_1 t) (hs0_1 t) (ms0_2 t) (hs0_2 t) scM0 (Memref.isWhole_whole _) hc0 hc1 (iblk0 V c 0 t) ((cfg0.win 1).fill (cfg0.grid.coords t) d1 (iblk0 V c 1 t)) acc)
            isplitr
            · ipureintro
              rw [sout0_C_eq]
              exact hstep
            · unfold owns; iexists _; isplitr
              swap; · iexact HS
              ipureintro; exact View.read_writes_of_cover _ _ _ _ _ (scover0_C c _ _ _ _ _ _ _ _ _ _ _ _ _ _)
          iexact Hr
        iexact Hg
      isplitl [Ho]; · iexact Ho
      isplitl [H0]; · iexact H0
      isplitl [H1]; · iexists d1; iexact H1
      iexists (out0_C c (grid0.coords t) (ms0_0 t) (hs0_0 t) (ms0_1 t) (hs0_1 t) (ms0_2 t) (hs0_2 t) scM0 (Memref.isWhole_whole _) hc0 hc1 (iblk0 V c 0 t) ((cfg0.win 1).fill (cfg0.grid.coords t) d1 (iblk0 V c 1 t)) acc)
      have hcut : (cfg0.win 2).cut (cfg0.grid.coords t) (out0_C c (grid0.coords t) (ms0_0 t) (hs0_0 t) (ms0_1 t) (hs0_1 t) (ms0_2 t) (hs0_2 t) scM0 (Memref.isWhole_whole _) hc0 hc1 (iblk0 V c 0 t) ((cfg0.win 1).fill (cfg0.grid.coords t) d1 (iblk0 V c 1 t)) acc)
          = (cfg0.win 2).cut (cfg0.grid.coords t) (accS V c t.val t.isLt) := by
        funext j'
        show out0_C _ _ _ _ _ _ _ _ _ _ _ _ _ _ _ ((cfg0.win 2).xinj _ j') = accS V c t.val t.isLt ((cfg0.win 2).xinj _ j')
        rw [out0_C_eq]
        exact hstep _ ((cfg0.win 2).moved_xinj _ j')
      rw [(cfg0.win 2).fill_congr_cut _ hcut]
      unfold owns; iexists _; isplitr
      swap; · iexact H2
      ipureintro; exact View.read_writes_of_cover _ _ _ _ _ (cover0_C c _ _ _ _ _ _ _ _ _ _ _ _ _ _)
    · -- 0 < k < 15: one more step
      have hc1 : ¬cond0_1 (grid0.coords t) := fun h => h1 ((hcond0_1 t).mp h)
      rw [leaves0_2_idle V c t h1]
      iintro ⟨⟨⟨⟨%acc, %hacc, HS⟩, Hr⟩, Hg⟩, Ho, ⟨%d0, H0⟩, ⟨%d1, H1⟩, ⟨%d2, H2⟩⟩
      iapply ((kernelRun0_B c (grid0.coords t) (ms0_0 t) (hs0_0 t) (ms0_1 t) (hs0_1 t) (ms0_2 t) (hs0_2 t) scM0 (Memref.isWhole_whole _) hc0 hc1 (iblk0 V c 0 t) ((cfg0.win 1).fill (cfg0.grid.coords t) d1 (iblk0 V c 1 t)) acc).2 _ Set.univ _)
      isplitl [H0]; · iexact H0
      isplitl [H1]; · iexact H1
      isplitl [H2]; · iexact H2
      isplitl [HS]; · iexact HS
      iintro ⟨H0, H1, H2, ⟨%es, HS⟩⟩
      isplitl [HS Hr Hg]
      · isplitl [HS Hr]
        · isplitl [HS]
          · iexists (sout0_B c (grid0.coords t) (ms0_0 t) (hs0_0 t) (ms0_1 t) (hs0_1 t) (ms0_2 t) (hs0_2 t) scM0 (Memref.isWhole_whole _) hc0 hc1 (iblk0 V c 0 t) ((cfg0.win 1).fill (cfg0.grid.coords t) d1 (iblk0 V c 1 t)) acc)
            isplitr
            · ipureintro
              rw [sout0_B_eq]
              intro j hj
              rw [accS_step V c t h0]
              exact step_ok V c t d1 _ _ (fun j hj => hacc j (moved_prev t h0 j hj)) j hj
            · unfold owns; iexists _; isplitr
              swap; · iexact HS
              ipureintro; exact View.read_writes_of_cover _ _ _ _ _ (scover0_B c _ _ _ _ _ _ _ _ _ _ _ _ _ _)
          iexact Hr
        iexact Hg
      isplitl [Ho]; · iexact Ho
      isplitl [H0]; · iexact H0
      isplitl [H1]; · iexists d1; iexact H1
      iexists d2; iexact H2

/-- The library's body obligation, at every point. -/
theorem body_obligation0 (c : Dev nD) : BodyObligationLoose (dat0 V c) (defs₀ (F := Ideal)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]

/-- After the last point the invariant gives the scoped rest back: the accumulator's contents are forgotten. -/
theorem hout0 (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 32 := N_0; omega), PhiA0_eq']
  iintro ⟨⟨⟨%acc, -, HS⟩, Hr⟩, Hg⟩
  isplitl [HS Hr]
  · isplitl [HS]
    · iexists _; iexact HS
    iexact Hr
  iexact Hg

end Cert.KernelIdeal.Hand

end
-- ==== Proof.Reg1.lean ====
import proofs.«124964_j67465346285598_2_alg».proof.Proof.Gen.KernelIdeal.Launch
import proofs.«124964_j67465346285598_2_alg».proof.Proof.Gen.KernelIdeal.Skeleton
import proofs.«124964_j67465346285598_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

/-!
# The second matrix product of the kernel: main_v1 = main_v0 · main_arg1ᵀ

The second call computes, for the array main_v0 : 64 × 9248 left by the first call and the weight
main_arg1 : 8192 × 9248, the product main_v0 · main_arg1ᵀ : 64 × 8192, in 32 column blocks of 256
columns: at point n the whole left factor (one block, fetched once) meets rows 256 n … 256 n + 255
of the weight, the accumulator is zeroed, the block product is added to it, and the accumulator is
copied out to columns 256 n … 256 n + 255 of the result. The contraction axis is not tiled
(the grid's second axis has one point), so both conditionals of the body hold at every point, and
nothing is carried from one point to the next.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Facts₀ Facts

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-! ## The blocks the second product reads -/

/-- Window w's block at point t, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The left factor's staging buffer holds the whole left factor at every point (it is fetched once, and its
    block index never moves). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The weight's staging buffer holds the point's 256 rows of the weight. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's two conditionals hold at every point -/

/-- The first conditional (zero the accumulator when the contraction coordinate is 0), from the grid coordinates. -/
abbrev cond1_0 (i : grid1.Coords) : Prop := (Scalar.cmpi .ne (Scalar.extui (Scalar.cmpi .eq (BitVec.ofNat 32 (i 1).val) 0#32)) 0#32) = 1#1
/-- The contraction axis has one point, so its coordinate is 0 everywhere. -/
theorem hcond1_0 : ∀ t : Fin cfg1.N, cond1_0 (grid1.coords t) :=
  (by decide +kernel : ∀ t : Fin grid1.N, cond1_0 (grid1.coords t))
/-- The second conditional (copy the accumulator out when the contraction coordinate is the last, again 0). -/
theorem hcond1_1 : ∀ t : Fin cfg1.N, k1_cond2 (grid1.coords t) = 1#1 :=
  (by decide +kernel : ∀ t : Fin grid1.N, k1_cond2 (grid1.coords t) = 1#1)
/-- So no window is idle anywhere. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel

/-! ## The accumulator -/

/-- The accumulator: a whole scoped buffer of the kernel's own. -/
abbrev acc1 : Memref sig .tc .vmem S64x256 .f32 := Memref.whole cc1_scratch0
/-- One staging buffer of the result window, through which what the body leaves is stated. -/
abbrev VO1 : View sig .tc .vmem S64x256 .f32 := (Memref.whole cc1_stg2_0 : Memref sig .tc .vmem S64x256 .f32).view

/-- The region invariant with the accumulator as a memref owned at some contents, beside the other scoped
    buffers this call does not stage (the first call's) and the generator register. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f) ∗ (∃ d, owns (c : Thread nD τ) acc1 fullShare d)) ∗ (∃ r, prngReg c r)) := by
  unfold Pipeline.ΦA; rw [scopedRest1_eq]; simp only [acc1, owns_whole]; try rfl

/-! ## The body's run -/

set_option maxHeartbeats 1000000 in
/-- What the body's stores leave in the result window's staging memref and in the accumulator, as pieces
    (last first), WITH the proof that on whole memrefs, the two factors' at their contents, the result's and the
    accumulator's at anything, the body runs to the continuation holding the factors' as they were and the other
    two with their pieces written. Both conditionals are decided by the hypotheses; the pieces are the
    witness the run finds. -/
noncomputable def kernelRun1 (c : Dev nD) (i : grid1.Coords)
    (arg2 : Memref sig .tc .vmem S64x9248 .f32) (harg2 : arg2.IsWhole)
    (arg3 : Memref sig .tc .vmem S256x9248 .f32) (harg3 : arg3.IsWhole)
    (arg4 : Memref sig .tc .vmem S64x256 .f32) (harg4 : arg4.IsWhole)
    (arg5 : Memref sig .tc .vmem S64x256 .f32) (harg5 : arg5.IsWhole)
    (hc0 : cond1_0 i) (hc1 : k1_cond2 i = 1#1)
    (x0 : Vec F S64x9248 .f32) (x1 : Vec F S256x9248 .f32) :
    Σ' (L2 : List (View.Piece (Elt F) S64x256 .f32)), { LS : List (View.Piece (Elt F) S64x256 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS)) -∗ K ⟨⟩))
          ⊢ wp frame (wpE (defs₀ (F := F)) Variants.none c none) E (cc1__matmul_bT_kernel i arg2 harg2 arg3 harg3 arg4 harg4 arg5 harg5) K } := by
  refine ⟨?_, ?_, fun E K => ?run⟩
  case run =>
    simp only [cc1__matmul_bT_kernel_eq_skeleton]; unfold cc1__matmul_bT_kernel_skel
    unfold owns
    iintro ⟨⟨%f0, %hf0, H0⟩, ⟨%f1, %hf1, H1⟩, ⟨%d2, %f2, -, H2⟩, ⟨%ds, %fs, -, HS⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS

/-! ## What the body leaves in the result window's buffer -/

theorem zero_off : (![0, 0] : Fin 2 → Nat) = fun _ => 0 := funext fun a => by fin_cases a <;> rfl

/-- The block product added to the zeroed accumulator: what the body leaves in the result window's buffer, from
    the left factor x0 and the weight's rows x1. -/
def out1 (x0 : Vec F S64x9248 .f32) (x1 : Vec F S256x9248 .f32) : Vec F S64x256 .f32 :=
  k1_pay2 x0 x1 k1_pay1

/-- The result window's pieces (one whole-block store) cover its block. -/
theorem cover1_2 (c : Dev nD) (i : grid1.Coords)
    (arg2 : Memref sig .tc .vmem S64x9248 .f32) (harg2 : arg2.IsWhole)
    (arg3 : Memref sig .tc .vmem S256x9248 .f32) (harg3 : arg3.IsWhole)
    (arg4 : Memref sig .tc .vmem S64x256 .f32) (harg4 : arg4.IsWhole)
    (arg5 : Memref sig .tc .vmem S64x256 .f32) (harg5 : arg5.IsWhole)
    (hc0 : cond1_0 i) (hc1 : k1_cond2 i = 1#1)
    (x0 : Vec F S64x9248 .f32) (x1 : Vec F S256x9248 .f32) (y : S64x256.Idx) :
    ∃ pc ∈ (kernelRun1 c i arg2 harg2 arg3 harg3 arg4 harg4 arg5 harg5 hc0 hc1 x0 x1).1, y ∈ pc.1.set :=
  View.cover_of_tiledL (kernelRun1 c i arg2 harg2 arg3 harg3 arg4 harg4 arg5 harg5 hc0 hc1 x0 x1).1 S64x256.size (by sl_kernel_rfl) y

/-- The accumulator's pieces cover it too. -/
theorem scover1 (c : Dev nD) (i : grid1.Coords)
    (arg2 : Memref sig .tc .vmem S64x9248 .f32) (harg2 : arg2.IsWhole)
    (arg3 : Memref sig .tc .vmem S256x9248 .f32) (harg3 : arg3.IsWhole)
    (arg4 : Memref sig .tc .vmem S64x256 .f32) (harg4 : arg4.IsWhole)
    (arg5 : Memref sig .tc .vmem S64x256 .f32) (harg5 : arg5.IsWhole)
    (hc0 : cond1_0 i) (hc1 : k1_cond2 i = 1#1)
    (x0 : Vec F S64x9248 .f32) (x1 : Vec F S256x9248 .f32) (y : S64x256.Idx) :
    ∃ pc ∈ (kernelRun1 c i arg2 harg2 arg3 harg3 arg4 harg4 arg5 harg5 hc0 hc1 x0 x1).2.1, y ∈ pc.1.set :=
  View.cover_of_tiledL (kernelRun1 c i arg2 harg2 arg3 harg3 arg4 harg4 arg5 harg5 hc0 hc1 x0 x1).2.1 S64x256.size (by sl_kernel_rfl) y

set_option maxHeartbeats 400000 in
/-- Read back, the result window's pieces are the block product added to the zeroed accumulator, through any view. -/
theorem run1_leaves (c : Dev nD) (i : grid1.Coords)
    (arg2 : Memref sig .tc .vmem S64x9248 .f32) (harg2 : arg2.IsWhole)
    (arg3 : Memref sig .tc .vmem S256x9248 .f32) (harg3 : arg3.IsWhole)
    (arg4 : Memref sig .tc .vmem S64x256 .f32) (harg4 : arg4.IsWhole)
    (arg5 : Memref sig .tc .vmem S64x256 .f32) (harg5 : arg5.IsWhole)
    (hc0 : cond1_0 i) (hc1 : k1_cond2 i = 1#1)
    (x0 : Vec F S64x9248 .f32) (x1 : Vec F S256x9248 .f32) (f : arg4.view.ty.Contents (Elt F)) :
    arg4.view.read (Elt F) (arg4.view.writes (Elt F) f (kernelRun1 c i arg2 harg2 arg3 harg3 arg4 harg4 arg5 harg5 hc0 hc1 x0 x1).1) = out1 x0 x1 := by
  rw [View.read_writes_eq_canon _ _ _ (cover1_2 c i arg2 harg2 arg3 harg3 arg4 harg4 arg5 harg5 hc0 hc1 x0 x1)]
  unfold kernelRun1
  dsimp only
  sl_unfold_words
  rw [View.canon_unit_zero (S := S64x256) zero_off]
  rw [View.readCov_eq_canon_ld _ _ _ (fun y => ⟨_, List.mem_cons_self, View.mem_set_unit_zero zero_off Gen.inb_S64x256_S64x256_0_0 y⟩)]
  rw [View.canon_cons_unit_zero (S := S64x256) zero_off, View.ld_unit_zero (S := S64x256) zero_off]
  rw [View.readCov_unit_zero _ zero_off]
  simp only [View.readAt_eq_ld, harg2.read_unread, harg3.read_unread, View.ld_unit_zero (S := S64x9248) zero_off, View.ld_unit_zero (S := S256x9248) zero_off]
  rfl

/-! ## The pipeline's proof data -/

/-- The proof data of the second call on core c: the arrays as the call finds them (V); after the body at point t
    each factor's buffer at its block and the result's at the block product of the two; the invariant the scoped
    rest and the generator register, untouched from point to point (the accumulator is rewritten from zero at every
    point, so nothing of it is carried); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1 (iblk1 V c 0 t) (iblk1 V c 1 t)
  Φ _ := Pipeline.ΦA spec1 c
  q _ := fullShare
  owed _ := 0

/-- The proof data's arrays are the contents the call is entered with. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1 (iblk1 V c 0 t) (iblk1 V c 1 t) := by dsimp only [dat1]

/-- Each factor's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 1600000 in
/-- The body at any point: the factors' memrefs hold their blocks, the invariant lends the accumulator at whatever it
    holds and takes it back at whatever the body left in it, the result's buffer ends at the block product; the
    first call's scoped buffers, the generator register and the core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl]
  rw [show (dat1 V c).leavesExact 0 t = owns (c : Thread nD τ) (st1_0 t) fullShare ((dat1 V c).after 0 t) from by
      unfold Dat.leavesExact; rw [liveAt1_0 t], after1_0]
  rw [show (dat1 V c).leavesExact 1 t = owns (c : Thread nD τ) (st1_1 t) fullShare ((dat1 V c).after 1 t) from by
      unfold Dat.leavesExact; rw [liveAt1_1 t], after1_1]
  rw [show (dat1 V c).leavesExact 2 t = owns (c : Thread nD τ) (st1_2 t) fullShare ((dat1 V c).after 2 t) from by
      unfold Dat.leavesExact; rw [liveAt1_2 t], after1_2]
  rw [show (dat1 V c).Φ t.castSucc = Pipeline.ΦA spec1 c from rfl, PhiA1_eq]
  iintro ⟨⟨⟨R0, R1, R2, R3, R4, R5, R6, HS⟩, Hg⟩, Ho, ⟨%d0, H0⟩, ⟨%d1, H1⟩, ⟨%d2, H2⟩⟩
  iapply ((kernelRun1 c (grid1.coords t) _ _ _ _ _ _ _ _ (hcond1_0 t) (hcond1_1 t) (iblk1 V c 0 t) (iblk1 V c 1 t)).2.2 Set.univ _)
  isplitl [H0]; · iexact H0
  isplitl [H1]; · iexact H1
  isplitl [H2]; · iexists _; iexact H2
  isplitl [HS]; · iexact HS
  iintro ⟨H0, H1, ⟨%e2, H2⟩, ⟨%es, HS⟩⟩
  isplitl [R0 R1 R2 R3 R4 R5 R6 HS Hg]
  · isplitl [R0 R1 R2 R3 R4 R5 R6 HS]
    · isplitl [R0]; · iexact R0
      isplitl [R1]; · iexact R1
      isplitl [R2]; · iexact R2
      isplitl [R3]; · iexact R3
      isplitl [R4]; · iexact R4
      isplitl [R5]; · iexact R5
      isplitl [R6]; · iexact R6
      unfold owns; iexists _; iexists _; isplitr
      swap; · iexact HS
      ipureintro; rfl
    iexact Hg
  isplitl [Ho]; · iexact Ho
  isplitl [H0]; · iexact H0
  isplitl [H1]; · iexact H1
  unfold owns; iexists _; isplitr
  swap; · iexact H2
  ipureintro
  exact run1_leaves c (grid1.coords t) _ _ _ _ _ _ _ _ (hcond1_0 t) (hcond1_1 t) (iblk1 V c 0 t) (iblk1 V c 1 t) e2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.KernelIdeal.Hand

end
-- ==== Proof.Run.lean ====
/-
  The two regions in sequence on the extended reals: the buffer contents at each boundary — the launch memory, then
  region 0's arrays at what its write-backs leave, then region 1's —, each region as a segment entered from what the one
  before left, and the run of @main: every weakly fair execution terminates with every unscoped buffer at the last
  boundary's contents.
-/
import proofs.«124964_j67465346285598_2_alg».proof.Proof.Reg0Body
import proofs.«124964_j67465346285598_2_alg».proof.Proof.Reg1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt Ideal) ℓ) (ρ : Dev nD → PrngReg)

local notation "𝕀" => MT nD τ sig Unit (Elt Ideal) ℕ (UR sig nD τ) ℕ

/-- Core `c`'s buffers at launch. -/
abbrev W0 : Dev nD → Valuation τ sig (Elt Ideal) := fun c b => m (c, b)
abbrev V0 : (c : Dev nD) → (b : Ref sig .tc) → Buf (Elt Ideal) ((c : Thread nD τ).loc b) := fun c b => W0 m c b
/-- At region 0's exit: its arrays at what the pipeline leaves, every other buffer as entered. -/
def W1 (c : Dev nD) : Valuation τ sig (Elt Ideal) :=
  Pipeline.withArrays spec0 c (W0 m c) fun w => (dat0 (V0 m) c).arrAt w cfg0.N
theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1 : (c : Dev nD) → (b : Ref sig .tc) → Buf (Elt Ideal) ((c : Thread nD τ).loc b) := fun c b => W1 m c b
theorem hF0 (c : Dev nD) (w : Fin cfg0.W) : (dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-- At region 1's exit. -/
def W2 (c : Dev nD) : Valuation τ sig (Elt Ideal) :=
  Pipeline.withArrays spec1 c (W1 m c) fun w => (dat1 (V1 m) c).arrAt w cfg1.N
theorem W2_arr (c : Dev nD) (w : Fin cfg1.W) :
    W2 m c (Proc.devRef .tc (Pipeline.arrRef spec1 w)) = (dat1 (V1 m) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb
abbrev V2 : (c : Dev nD) → (b : Ref sig .tc) → Buf (Elt Ideal) ((c : Thread nD τ).loc b) := fun c b => W2 m c b
theorem hF1 (c : Dev nD) (w : Fin cfg1.W) : (dat1 (V1 m) c).arrAt w cfg1.N = V2 m c (Pipeline.arrRef spec1 w) :=
  (W2_arr m c w).symm
theorem hrest1 (c : Dev nD) : ∀ b, b ∉ Finset.univ.image (Pipeline.arrRef spec1) → V2 m c b = V1 m c b :=
  fun b hb => W2_of_ne m c b fun w e => hb (Finset.mem_image.mpr ⟨w, Finset.mem_univ _, e⟩)

/-! ### The arguments end as launched; the results are the arrays the write-backs leave -/

theorem W2_main_arg0 (c : Dev nD) : W2 m c (Proc.devRef .tc main_arg0) = m ((c : Thread nD τ).loc main_arg0) :=
  calc W2 m c (Proc.devRef .tc main_arg0)
    _ = W1 m c (Proc.devRef .tc main_arg0) := W2_of_ne m c main_arg0 (by decide)
    _ = W0 m c (Proc.devRef .tc main_arg0) := (W1_arr m c 0).trans (((dat0 (V0 m) c).arrAt_in 0 rfl _).trans (A_eq0 (V0 m) c 0))
    _ = m ((c : Thread nD τ).loc main_arg0) := rfl
theorem W2_main_arg2 (c : Dev nD) : W2 m c (Proc.devRef .tc main_arg2) = m ((c : Thread nD τ).loc main_arg2) :=
  calc W2 m c (Proc.devRef .tc main_arg2)
    _ = W1 m c (Proc.devRef .tc main_arg2) := W2_of_ne m c main_arg2 (by decide)
    _ = W0 m c (Proc.devRef .tc main_arg2) := (W1_arr m c 1).trans (((dat0 (V0 m) c).arrAt_in 1 rfl _).trans (A_eq0 (V0 m) c 1))
    _ = m ((c : Thread nD τ).loc main_arg2) := rfl
theorem W2_main_arg1 (c : Dev nD) : W2 m c (Proc.devRef .tc main_arg1) = m ((c : Thread nD τ).loc main_arg1) :=
  calc W2 m c (Proc.devRef .tc main_arg1)
    _ = W1 m c (Proc.devRef .tc main_arg1) := (W2_arr m c 1).trans (((dat1 (V1 m) c).arrAt_in 1 rfl _).trans (A_eq1 (V1 m) c 1))
    _ = W0 m c (Proc.devRef .tc main_arg1) := W1_of_ne m c main_arg1 (by decide)
    _ = m ((c : Thread nD τ).loc main_arg1) := rfl
theorem W2_main_v1 (c : Dev nD) : W2 m c (Proc.devRef .tc main_v1) = (dat1 (V1 m) c).arrAt 2 cfg1.N := W2_arr m c 2
theorem V1_main_v0 (c : Dev nD) : V1 m c main_v0 = (dat0 (V0 m) c).arrAt 2 cfg0.N := W1_arr m c 2
theorem V1_main_arg1 (c : Dev nD) : V1 m c main_arg1 = m ((c : Thread nD τ).loc main_arg1) := W1_of_ne m c main_arg1 (by decide)

/-! ## The proof data family and the thread state -/

abbrev adm : (p : Fin 2) → (pcfgs (F := Ideal) p).Adm := fun p => (cfgs p).toPCfg_adm
def pdats : (p : Fin 2) → (c : Dev nD) → Dat τ (Elt Ideal) Unit ℕ (UR sig nD τ) ℕ (Pipeline.pin (pcfgs (F := Ideal)) adm p) c
  | ⟨0, _⟩ => fun c => dat0 (V0 m) c
  | ⟨1, _⟩ => fun c => dat1 (V1 m) c
abbrev 𝒱₀ : Variants := Variants.none
abbrev L : GSem nD τ sig → Finset Unit := fun _ => ∅
abbrev lv : GSem nD τ sig → Unit → ℕ := fun _ _ => 0
/-- What rides beside the buffers: the generator register at some state and the core owing nothing. -/
abbrev R (c : Dev nD) : sProp 𝕀 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕀 := iprop(StableHlo.held (c : Thread nD τ) (Pipeline.ucRefs τ sig) (W2 m c) ∗ ∃ r, prngReg c r)

/-! ## The regions as segments -/

set_option backward.isDefEq.respectTransparency.types false in
/-- Region 0 over the thread state: entered from every unscoped buffer at `W0`, left at `W1`. -/
def reg0 : Pipeline.RegionSeg (pcfgs (F := Ideal)) adm (pdats m) () defs₀ 𝒱₀ L lv 0 where
  win := launch0.win.to₀
  block_pos := launch0.block_pos
  stage_whole := launch0.stage_whole
  K := PEmpty
  osem k := k.elim
  ho := Pipeline.OwnSemFacts.none _
  hbody c := body_obligation0 (V0 m) c
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := Ideal)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V0 m) c)
    unfold Pipeline.ΦA
    iintro ⟨Hp, -, Hr⟩
    isplitl [Hr]; · iexact Hr
    iexact Hp
  hout c := by
    rw [Pipeline.ownSems0_none]
    refine BIBase.Entails.trans (hout0 (V0 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := Ideal)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W1`, left at `W2`. -/
def reg1 : Pipeline.RegionSeg (pcfgs (F := Ideal)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V1 m c)
  hentry c := by
    rw [Pipeline.ownSems0_none]
    have hsplit := Pipeline.arrays_of_unscopedBufs (p := 1) (pcfgs (F := Ideal)) adm (pdats m) launch1.win launch1.arr_whole c
      ((pdats m 1 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    rw [show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := Ideal)) adm (Ix := Unit) (Name := ℕ) (U := UR sig nD τ) (Lvl := ℕ)
      launch1.win launch1.arr_whole c (pdats m) ((pdats m 1 c).share_full fun _ => rfl)
      (V1 m c) (V2 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := Ideal)) adm (pdats m) () defs₀ 𝒱₀ L lv) :=
  [ .region (reg0 m), .region (reg1 m) ]

theorem main_run (c : Dev nD) : main (F := Ideal) c = Pipeline.Seg.run (segs m) := (main_chain c).trans (by chain_rfl)

set_option backward.isDefEq.respectTransparency.types false in
/-- THE RUN: every weakly fair execution of @main terminates, nothing faulting, and every final state has every unscoped
    buffer at the last boundary's contents. -/
theorem run_main : θ_run defs (onTc (τ := τ) (main (F := Ideal))) ⟨m, fun _ => 0, ρ⟩ (fun r => ∀ c : Dev nD,
      ∀ b ∈ Pipeline.ucRefs τ sig, r.2.mem (((c : Thread nD τ)).1, b) = W2 m c b) :=
  Pipeline.θ_run_regions_kit (pcfgs (F := Ideal)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕀)
            ⊢ BI.own (emb₁ (initOf (Pipeline.cells cfgs cellOf_inj) (Pipeline.launchToks cfgs cellOf_inj))) from .rfl)
        iexact Hu
      iapply (show (BI.emp : sProp 𝕀) ⊢ bigSep Finset.univ (fun _ : Dev nD => (BI.emp : sProp 𝕀)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m c b)
    (hfin := fun c s' => by
      iintro ⟨⟨Hh, -⟩, HSI⟩
      unfold StableHlo.held
      imodintro
      iapply (pointsTo_read_all (Pipeline.ucRefs τ sig) (fun b => (((c : Thread nD τ)).1, b)) (W2 m c) s')
      isplitl [Hh] <;> iassumption)
    (hQ := fun s h => h)

end Cert.KernelIdeal.Hand

end
-- ==== Proof.Spec.lean ====
/-
  The specification of this certificate, free of any program: the result as ONE function of the three argument
  arrays, index by index, over literal shapes, and the one law of sums the tiled kernel needs.

  With x : f32[64, 8192] (the encoded input), p : f32[9248, 8192] (the padding transform) and w : f32[8192, 9248]
  (the weight), the result is (x · pᵀ) · wᵀ : f32[64, 8192]:
      padded x p (r, j) = ∑ k < 8192, x (r, k) * p (j, k)              (r < 64, j < 9248)
      pooled y w (r, n) = ∑ j < 9248, y (r, j) * w (n, j)              (r < 64, n < 8192)
      G x w p           = pooled (padded x p) w.
  Both products are taken as written, the inner sum first: nothing is distributed, so no finiteness is needed and the
  sums live in the extended reals as a commutative additive monoid.

  The law: a sum over 8192 = 16 * 512 terms is the sum over the 16 blocks of the 512 terms of each block
  (`sum_blocks`), and its running form (`partialSum`): starting from 0 and adding block 0, 1, …, 15 in turn ends at the
  whole sum (`partialSum_16`). Only commutativity and associativity of + are used.
-/
import Idealize.ShloMosaic.PureOps.Ideal
import Idealize.ShloMosaic.Lib.ValueIdx
import Mathlib.Algebra.BigOperators.Fin
import Mathlib.Logic.Equiv.Fin.Basic

noncomputable section

open scoped BigOperators

namespace Cert.Spec

open Idealize.ShloMosaic Idealize.ShloMosaic.ValueIdx

/-! ## The two matrix products, by coordinates -/

/-- (x · pᵀ)(r, j): row r of x against row j of p, over the 8192 shared columns. -/
def paddedAt (x : (⟨2, ![64, 8192]⟩ : Shape).Idx → EReal) (p : (⟨2, ![9248, 8192]⟩ : Shape).Idx → EReal)
    (r : Fin 64) (j : Fin 9248) : EReal :=
  ∑ k : Fin 8192, x (ix2 r k) * p (ix2 j k)

/-- x · pᵀ as an array f32[64, 9248]. -/
def padded (x : (⟨2, ![64, 8192]⟩ : Shape).Idx → EReal) (p : (⟨2, ![9248, 8192]⟩ : Shape).Idx → EReal) :
    (⟨2, ![64, 9248]⟩ : Shape).Idx → EReal :=
  fun i => paddedAt x p ⟨(i 0).val, (i 0).isLt⟩ ⟨(i 1).val, (i 1).isLt⟩

/-- (y · wᵀ)(r, n): row r of y against row n of w, over the 9248 shared columns. -/
def pooledAt (y : (⟨2, ![64, 9248]⟩ : Shape).Idx → EReal) (w : (⟨2, ![8192, 9248]⟩ : Shape).Idx → EReal)
    (r : Fin 64) (n : Fin 8192) : EReal :=
  ∑ j : Fin 9248, y (ix2 r j) * w (ix2 n j)

/-- y · wᵀ as an array f32[64, 8192]. -/
def pooled (y : (⟨2, ![64, 9248]⟩ : Shape).Idx → EReal) (w : (⟨2, ![8192, 9248]⟩ : Shape).Idx → EReal) :
    (⟨2, ![64, 8192]⟩ : Shape).Idx → EReal :=
  fun i => pooledAt y w ⟨(i 0).val, (i 0).isLt⟩ ⟨(i 1).val, (i 1).isLt⟩

/-- The result: (x · pᵀ) · wᵀ. -/
def G (x : (⟨2, ![64, 8192]⟩ : Shape).Idx → EReal) (w : (⟨2, ![8192, 9248]⟩ : Shape).Idx → EReal)
    (p : (⟨2, ![9248, 8192]⟩ : Shape).Idx → EReal) : (⟨2, ![64, 8192]⟩ : Shape).Idx → EReal :=
  pooled (padded x p) w

/-- x · pᵀ at the index of coordinates (r, j). -/
theorem padded_ix2 (x : (⟨2, ![64, 8192]⟩ : Shape).Idx → EReal) (p : (⟨2, ![9248, 8192]⟩ : Shape).Idx → EReal)
    (r : Fin 64) (j : Fin 9248) :
    padded x p (ix2 r j) = ∑ k : Fin 8192, x (ix2 r k) * p (ix2 j k) := rfl

/-- y · wᵀ at the index of coordinates (r, n). -/
theorem pooled_ix2 (y : (⟨2, ![64, 9248]⟩ : Shape).Idx → EReal) (w : (⟨2, ![8192, 9248]⟩ : Shape).Idx → EReal)
    (r : Fin 64) (n : Fin 8192) :
    pooled y w (ix2 r n) = ∑ j : Fin 9248, y (ix2 r j) * w (ix2 n j) := rfl

/-- The result at the index of coordinates (r, n). -/
theorem G_ix2 (x : (⟨2, ![64, 8192]⟩ : Shape).Idx → EReal) (w : (⟨2, ![8192, 9248]⟩ : Shape).Idx → EReal)
    (p : (⟨2, ![9248, 8192]⟩ : Shape).Idx → EReal) (r : Fin 64) (n : Fin 8192) :
    G x w p (ix2 r n) = ∑ j : Fin 9248, padded x p (ix2 r j) * w (ix2 n j) := rfl

/-! ## A sum over a * b terms, block by block -/

/-- A sum over a * b terms is the sum over the a blocks of the b consecutive terms of each. -/
theorem sum_mul_blocks {M : Type*} [AddCommMonoid M] (a b : ℕ) (f : Fin (a * b) → M) :
    ∑ k : Fin (a * b), f k
      = ∑ i : Fin a, ∑ j : Fin b, f ⟨i.val * b + j.val, by
          have hi := i.isLt; have hj := j.isLt
          calc i.val * b + j.val < i.val * b + b := by omega
            _ = (i.val + 1) * b := by ring
            _ ≤ a * b := Nat.mul_le_mul_right b hi⟩ := by
  rw [← Equiv.sum_comp (finProdFinEquiv (m := a) (n := b)) f, Fintype.sum_prod_type]
  refine Finset.sum_congr rfl fun i _ => Finset.sum_congr rfl fun j _ => congrArg f (Fin.ext ?_)
  show j.val + b * i.val = i.val * b + j.val
  rw [Nat.mul_comm, Nat.add_comm]

/-- The contraction over 8192 columns, by its 16 blocks of 512 columns. -/
theorem sum_blocks (f : Fin 8192 → EReal) :
    ∑ k : Fin 8192, f k = ∑ kb : Fin 16, ∑ kk : Fin 512, f ⟨kb.val * 512 + kk.val, by omega⟩ :=
  sum_mul_blocks 16 512 f

/-! ## The running sum of the blocks -/

/-- Block n of the contraction (n < 16): the 512 terms from n * 512 on. Zero past the last block. -/
def blockSum (f : Fin 8192 → EReal) (n : ℕ) : EReal :=
  if h : n < 16 then ∑ kk : Fin 512, f ⟨n * 512 + kk.val, by omega⟩ else 0

theorem blockSum_of_lt (f : Fin 8192 → EReal) {n : ℕ} (h : n < 16) :
    blockSum f n = ∑ kk : Fin 512, f ⟨n * 512 + kk.val, by omega⟩ := dif_pos h

/-- The accumulator after n steps: zero, then one block more at each step. -/
def partialSum (f : Fin 8192 → EReal) : ℕ → EReal
  | 0 => 0
  | n + 1 => partialSum f n + blockSum f n

theorem partialSum_zero (f : Fin 8192 → EReal) : partialSum f 0 = 0 := rfl
theorem partialSum_succ (f : Fin 8192 → EReal) (n : ℕ) : partialSum f (n + 1) = partialSum f n + blockSum f n := rfl

/-- The accumulator after n steps is the sum of the first n blocks. -/
theorem partialSum_eq_sum_range (f : Fin 8192 → EReal) (n : ℕ) :
    partialSum f n = ∑ m ∈ Finset.range n, blockSum f m := by
  induction n with
  | zero => rfl
  | succ n ih => rw [partialSum_succ, ih, Finset.sum_range_succ]

/-- After all 16 steps the accumulator holds the whole contraction. -/
theorem partialSum_16 (f : Fin 8192 → EReal) : partialSum f 16 = ∑ k : Fin 8192, f k := by
  rw [partialSum_eq_sum_range, ← Fin.sum_univ_eq_sum_range (fun m => blockSum f m) 16, sum_blocks]
  exact Finset.sum_congr rfl fun kb _ => blockSum_of_lt f kb.isLt

end Cert.Spec

end
-- ==== Proof.Spec2.lean ====
/-
  Two pieces of arithmetic for the first product's tiling.

  The accumulator: along the 16 steps of the contraction it is set to zero and given block 0 at the first step, and
  given block k at step k; after the last step (k = 15) it holds the whole sum over the 8192 columns (`acc_steps`).

  The columns: the 9248 columns of x · pᵀ are cut into two blocks of width 4736, the second one holding only
  9248 - 4736 = 4512 columns of the array. A column j lies in block j / 4736 at offset j % 4736, and that offset is
  below the block's width inside the array.
-/
import proofs.«124964_j67465346285598_2_alg».proof.Proof.Spec

noncomputable section

open scoped BigOperators

namespace Cert.Spec

/-! ## The accumulator along the 16 steps -/

/-- An accumulator that starts at zero plus block 0 and takes block k at step k is, at every step k < 16, the
    running sum of the first k + 1 blocks. -/
theorem acc_eq_partialSum (f : Fin 8192 → EReal) (a : ℕ → EReal) (h0 : a 0 = 0 + blockSum f 0)
    (hs : ∀ k, 0 < k → k < 16 → a k = a (k - 1) + blockSum f k) :
    ∀ k, k < 16 → a k = partialSum f (k + 1) := by
  intro k
  induction k with
  | zero => intro _; rw [h0]; rfl
  | succ k ih =>
    intro hk
    rw [hs (k + 1) (Nat.succ_pos k) hk, Nat.add_sub_cancel, ih (by omega), partialSum_succ f (k + 1)]

/-- After the last step the accumulator holds the whole contraction. -/
theorem acc_steps (f : Fin 8192 → EReal) (a : ℕ → EReal) (h0 : a 0 = 0 + blockSum f 0)
    (hs : ∀ k, 0 < k → k < 16 → a k = a (k - 1) + blockSum f k) :
    a 15 = ∑ k : Fin 8192, f k := by
  rw [acc_eq_partialSum f a h0 hs 15 (by omega), partialSum_16]

/-! ## The two column blocks of width 4736 over 9248 columns -/

/-- A column lies in block 0 or block 1. -/
theorem col_block_lt (j : ℕ) (h : j < 9248) : j / 4736 < 2 := by omega

/-- Its offset in the block is below the block's width. -/
theorem col_offset_lt (j : ℕ) : j % 4736 < 4736 := by omega

/-- A column is its block's start plus its offset. -/
theorem col_split (j : ℕ) : j = j / 4736 * 4736 + j % 4736 := by omega

/-- The offset is below the part of the block that lies inside the array: all 4736 columns of block 0, the first
    4512 of block 1. -/
theorem col_offset_lt_clip (j : ℕ) (h : j < 9248) : j % 4736 < (if j / 4736 = 0 then 4736 else 4512) := by
  split <;> omega

/-- Block 1 holds 4512 columns of the array. -/
theorem col_offset_lt_of_block_one (j : ℕ) (h : j < 9248) (h1 : j / 4736 = 1) : j % 4736 < 4512 := by omega

/-- Conversely, an offset inside the array's part of block n names a column of the array … -/
theorem col_of_block_lt (n q : ℕ) (hn : n < 2) (hq : q < (if n = 0 then 4736 else 4512)) : n * 4736 + q < 9248 := by
  split at hq <;> omega

/-- … whose block is n … -/
theorem col_of_block_div (n q : ℕ) (hq : q < 4736) : (n * 4736 + q) / 4736 = n := by omega

/-- … and whose offset is q. -/
theorem col_of_block_mod (n q : ℕ) (hq : q < 4736) : (n * 4736 + q) % 4736 = q := by omega

end Cert.Spec

end
-- ==== Proof.Reg0Value.lean ====
/-
  Region 0's result array as one function of the argument arrays: x · pᵀ.

  The first product is computed in two column blocks of width 4736 (the second holds 4512 columns of the array) and,
  inside each, along 16 steps of 512 shared columns. At step k of column block n the left block is the columns
  k * 512 … of x and the right block the rows n * 4736 … and columns k * 512 … of p (zero on the rows past p's end).
  The accumulator is zeroed at k = 0 and takes one block's products at every step, so at k = 15 it holds, at row r and
  column q inside the array, the whole sum ∑ k' < 8192, x (r, k') * p (n * 4736 + q, k'); that step writes it back, and the
  two write-backs cover the array.
-/
import proofs.«124964_j67465346285598_2_alg».proof.Proof.Reg0Data
import proofs.«124964_j67465346285598_2_alg».proof.Proof.Spec2

set_option maxRecDepth 16384

noncomputable section

open scoped BigOperators

namespace Cert.KernelIdeal.Hand

open Cert.KernelIdeal Cert.KernelIdeal.Gen
open Idealize.ShloMosaic Idealize.ShloMosaic.TcCoe
open Idealize.SL.Sem
open Idealize.ShloMosaic.Pipeline (Dat Cfg Window)
open Idealize.ShloMosaic.ValueIdx

variable (V : (c : Dev nD) → (b : Ref sig .tc) → Buf (Elt Ideal) ((c : Thread nD τ).loc b))

/-! ## The printed index maps and cuts, decided over the grid's 32 points -/

/-- Point t = 16 n + k: the left window is at column block k, the right one at row block n and column block k, the
    result at column block n. -/
theorem idx_facts0 : ∀ t : Fin cfg0.N,
    win0_0.index t (0 : Fin 2) = 0 ∧ win0_0.index t (1 : Fin 2) = t.val % 16
    ∧ win0_1.index t (0 : Fin 2) = t.val / 16 ∧ win0_1.index t (1 : Fin 2) = t.val % 16
    ∧ win0_2.index t (0 : Fin 2) = 0 ∧ win0_2.index t (1 : Fin 2) = t.val / 16 :=
  (by decide +kernel : ∀ t : Fin grid0.N,
    win0_0.index t (0 : Fin 2) = 0 ∧ win0_0.index t (1 : Fin 2) = t.val % 16
    ∧ win0_1.index t (0 : Fin 2) = t.val / 16 ∧ win0_1.index t (1 : Fin 2) = t.val % 16
    ∧ win0_2.index t (0 : Fin 2) = 0 ∧ win0_2.index t (1 : Fin 2) = t.val / 16)

/-- The right window keeps 4736 rows in row block 0 and 4512 in row block 1, and all 512 columns; the result window all
    64 rows, and 4736 columns in column block 0 and 4512 in column block 1. -/
theorem cut_facts0 : ∀ t : Fin cfg0.N,
    (cfg0.win 1).xsize (cfg0.grid.coords t) 0 = (if t.val / 16 = 0 then 4736 else 4512)
    ∧ (cfg0.win 1).xsize (cfg0.grid.coords t) 1 = 512
    ∧ (cfg0.win 2).xsize (cfg0.grid.coords t) 0 = 64
    ∧ (cfg0.win 2).xsize (cfg0.grid.coords t) 1 = (if t.val / 16 = 0 then 4736 else 4512) :=
  (by decide +kernel : ∀ t : Fin grid0.N,
    win0_1.xsize (grid0.coords t) 0 = (if t.val / 16 = 0 then 4736 else 4512)
    ∧ win0_1.xsize (grid0.coords t) 1 = 512
    ∧ win0_2.xsize (grid0.coords t) 0 = 64
    ∧ win0_2.xsize (grid0.coords t) 1 = (if t.val / 16 = 0 then 4736 else 4512))

/-! ## The blocks at a point, read at an entry -/

/-- The left block at step k is the columns k * 512 … of x. -/
theorem left_read (c : Dev nD) (t : Fin cfg0.N) (r : Fin 64) (kk : Fin 512) :
    iblk0 V c 0 t (ix2 r kk) = V c main_arg0 (ix2 r (⟨t.val % 16 * 512 + kk.val, by omega⟩ : Fin 8192)) := by
  show V c main_arg0 (((cfg0.win 0).blk t).view.emb (ix2 r kk)) = _
  refine congrArg (V c main_arg0) ?_
  obtain ⟨e0, e1, -⟩ := idx_facts0 t
  funext a; apply Fin.ext
  match a with
  | ⟨0, _⟩ => show win0_0.index t (0 : Fin 2) * 64 + 1 * r.val = r.val; omega
  | ⟨1, _⟩ => show win0_0.index t (1 : Fin 2) * 512 + 1 * kk.val = t.val % 16 * 512 + kk.val; omega

/-- The right block at row block n and step k, on a row inside the array, is the rows n * 4736 … and columns
    k * 512 … of p. -/
theorem right_read (c : Dev nD) (t : Fin cfg0.N) (q : Fin 4736) (kk : Fin 512) (hq : t.val / 16 * 4736 + q.val < 9248) :
    blk1z V c t (ix2 q kk)
      = V c main_arg2 (ix2 (⟨t.val / 16 * 4736 + q.val, hq⟩ : Fin 9248) (⟨t.val % 16 * 512 + kk.val, by omega⟩ : Fin 8192)) := by
  obtain ⟨-, -, e2, e3, -⟩ := idx_facts0 t
  obtain ⟨c0, c1, -⟩ := cut_facts0 t
  have ht : t.val < 32 := t.isLt
  have hm : (cfg0.win 1).moved (cfg0.grid.coords t) (ix2 q kk) = true := by
    rw [Window.moved_iff]
    intro a
    match a with
    | ⟨0, _⟩ => show q.val < (cfg0.win 1).xsize (cfg0.grid.coords t) 0; rw [c0]; split <;> omega
    | ⟨1, _⟩ => show kk.val < (cfg0.win 1).xsize (cfg0.grid.coords t) 1; rw [c1]; exact kk.isLt
  unfold blk1z Window.fill
  rw [dif_pos hm]
  show V c main_arg2 (((cfg0.win 1).blk t).view.emb _) = _
  refine congrArg (V c main_arg2) ?_
  funext a; apply Fin.ext
  match a with
  | ⟨0, _⟩ => show win0_1.index t (0 : Fin 2) * 4736 + 1 * q.val = t.val / 16 * 4736 + q.val; omega
  | ⟨1, _⟩ => show win0_1.index t (1 : Fin 2) * 512 + 1 * kk.val = t.val % 16 * 512 + kk.val; omega

/-! ## The accumulator along the 16 steps of one column block -/

/-- The products one entry of x · pᵀ sums: row r of x against row j of p. -/
def term (x : S64x8192.Idx → EReal) (p : S9248x8192.Idx → EReal) (r : Fin 64) (j : Fin 9248) : Fin 8192 → EReal :=
  fun k' => x (ix2 r k') * p (ix2 j k')

/-- One step at row r and a column q of the block that is column j of the array: the accumulator takes block
    k = t % 16 of the 8192 products. -/
theorem step_read (c : Dev nD) (t : Fin cfg0.N) (r : Fin 64) (q : Fin 4736) (j : Fin 9248)
    (hj : j.val = t.val / 16 * 4736 + q.val) (acc : Vec Ideal S64x4736 .f32) :
    k0_pay2 (F := Ideal) (iblk0 V c 0 t) (blk1z V c t) acc (ix2 r q)
      = acc (ix2 r q) + Cert.Spec.blockSum (term (V c main_arg0) (V c main_arg2) r j) (t.val % 16) := by
  have hq : t.val / 16 * 4736 + q.val < 9248 := hj ▸ j.isLt
  obtain rfl : j = ⟨_, hq⟩ := Fin.ext hj
  rw [pay2_apply, Cert.Spec.blockSum_of_lt _ (Nat.mod_lt _ (by norm_num))]
  refine congrArg (acc (ix2 r q) + ·) (Finset.sum_congr rfl fun kk _ => ?_)
  rw [left_read, right_read V c t q kk hq]
  rfl

/-- At step k of a column block the accumulator holds, on a column inside the array, the running sum of the first
    k + 1 blocks of products. -/
theorem acc_running (c : Dev nD) (r : Fin 64) (q : Fin 4736) (j : Fin 9248) :
    ∀ (k : ℕ) (t : Fin cfg0.N), t.val % 16 = k → j.val = t.val / 16 * 4736 + q.val →
      accS V c t.val t.isLt (ix2 r q) = Cert.Spec.partialSum (term (V c main_arg0) (V c main_arg2) r j) (k + 1) := by
  intro k
  induction k with
  | zero =>
    intro t ht hj
    rw [accS_reset V c t ht, step_read V c t r q j hj, pay1_apply, ht]
    rfl
  | succ k ih =>
    intro t ht hj
    have hlt : t.val < 32 := t.isLt
    rw [accS_step V c t (by omega), step_read V c t r q j hj, ht]
    refine (congrArg (· + Cert.Spec.blockSum (term (V c main_arg0) (V c main_arg2) r j) (k + 1))
      (ih ⟨t.val - 1, Nat.lt_of_le_of_lt (Nat.sub_le _ _) t.isLt⟩ (show (t.val - 1) % 16 = k by omega)
        (show j.val = (t.val - 1) / 16 * 4736 + q.val by omega))).trans ?_
    exact (Cert.Spec.partialSum_succ _ (k + 1)).symm

/-- At the last step the accumulator holds the entry of x · pᵀ. -/
theorem acc_last (c : Dev nD) (t : Fin cfg0.N) (ht : t.val % 16 = 15) (r : Fin 64) (q : Fin 4736) (j : Fin 9248)
    (hj : j.val = t.val / 16 * 4736 + q.val) :
    accS V c t.val t.isLt (ix2 r q) = Cert.Spec.paddedAt (V c main_arg0) (V c main_arg2) r j := by
  rw [acc_running V c r q j 15 t ht hj, Cert.Spec.partialSum_16]
  rfl

/-! ## From the two written-back column blocks to the array -/

/-- What a writing point writes back is its block of x · pᵀ. -/
theorem flushed_padded (c : Dev nD) (t : Fin cfg0.N) (hf : (cfg0.win 2).flush t = true) :
    (dat0 V c).flushed 2 t
      = ((cfg0.win 2).blk t).view.read (Elt Ideal) (Cert.Spec.padded (V c main_arg0) (V c main_arg2)) := by
  have ht : t.val % 16 = 15 := (flush0_2 t).mp hf
  show (cfg0.win 2).cut (cfg0.grid.coords t) ((dat0 V c).after 2 t) = _
  rw [after0_2]
  obtain ⟨-, -, -, -, e4, e5⟩ := idx_facts0 t
  obtain ⟨-, -, c2, c3⟩ := cut_facts0 t
  funext y
  have hy0 : (y 0).val < 64 := lt_of_lt_of_eq (y 0).isLt c2
  have hy1 : (y 1).val < (if t.val / 16 = 0 then 4736 else 4512) := lt_of_lt_of_eq (y 1).isLt c3
  have hy1' : (y 1).val < 4736 := by split at hy1 <;> omega
  have hlt : t.val < 32 := t.isLt
  have hj : t.val / 16 * 4736 + (y 1).val < 9248 := by split at hy1 <;> omega
  show accS V c t.val t.isLt ((cfg0.win 2).xinj (cfg0.grid.coords t) y)
    = Cert.Spec.padded (V c main_arg0) (V c main_arg2) (((cfg0.win 2).blk t).view.emb y)
  have hx : (cfg0.win 2).xinj (cfg0.grid.coords t) y = ix2 (⟨(y 0).val, hy0⟩ : Fin 64) (⟨(y 1).val, hy1'⟩ : Fin 4736) :=
    funext fun a => Fin.ext (by match a with | ⟨0, _⟩ => rfl | ⟨1, _⟩ => rfl)
  have he : ((cfg0.win 2).blk t).view.emb y
      = ix2 (⟨(y 0).val, hy0⟩ : Fin 64) (⟨t.val / 16 * 4736 + (y 1).val, hj⟩ : Fin 9248) := by
    funext a; apply Fin.ext
    match a with
    | ⟨0, _⟩ => show win0_2.index t (0 : Fin 2) * 64 + 1 * (y 0).val = (y 0).val; omega
    | ⟨1, _⟩ => show win0_2.index t (1 : Fin 2) * 4736 + 1 * (y 1).val = t.val / 16 * 4736 + (y 1).val; omega
  rw [hx, he, acc_last V c t ht _ _ ⟨t.val / 16 * 4736 + (y 1).val, hj⟩ rfl]
  rfl

/-- A column of the array lies in the block written back at the last step of its column block. -/
theorem covered (i : S64x9248.Idx) :
    ∃ t : Fin cfg0.N, (cfg0.win 2).flush t = true ∧ i ∈ ((cfg0.win 2).blk t).view.set := by
  have h0 : (i 0).val < 64 := (i 0).isLt
  have h1 : (i 1).val < 9248 := (i 1).isLt
  let t : Fin cfg0.N := ⟨16 * ((i 1).val / 4736) + 15, by rw [show cfg0.N = 32 from N_0]; omega⟩
  have htv : t.val = 16 * ((i 1).val / 4736) + 15 := rfl
  refine ⟨t, (flush0_2 t).mpr (by omega), ?_⟩
  obtain ⟨-, -, -, -, e4, e5⟩ := idx_facts0 t
  obtain ⟨-, -, c2, c3⟩ := cut_facts0 t
  show i ∈ ((View.whole main_v0).slice (win0_2.rect t)).set
  rw [View.set_slice_whole, Rect.mem_set_unit]
  intro a
  match a with
  | ⟨0, _⟩ =>
    show win0_2.index t (0 : Fin 2) * 64 ≤ (i 0).val ∧ (i 0).val < win0_2.index t (0 : Fin 2) * 64 + (cfg0.win 2).xsize (cfg0.grid.coords t) 0
    rw [c2]; omega
  | ⟨1, _⟩ =>
    show win0_2.index t (1 : Fin 2) * 4736 ≤ (i 1).val ∧ (i 1).val < win0_2.index t (1 : Fin 2) * 4736 + (cfg0.win 2).xsize (cfg0.grid.coords t) 1
    rw [c3, e5]; split <;> omega

/-- Region 0 leaves x · pᵀ in its result array. -/
theorem arr0_final (c : Dev nD) :
    (dat0 V c).arrAt 2 cfg0.N = Cert.Spec.padded (V c main_arg0) (V c main_arg2) :=
  (dat0 V c).arrAt_eq_of_cover 2 (Cert.Spec.padded (V c main_arg0) (V c main_arg2))
    (fun t hf => flushed_padded V c t hf) covered

end Cert.KernelIdeal.Hand

end
-- ==== Proof.Reg1Value.lean ====
import proofs.«124964_j67465346285598_2_alg».proof.Proof.Reg1
import Idealize.ShloMosaic.Lib.ValueIdx
import Idealize.ShloMosaic.PureOps.Ideal.Laws
import proofs.«124964_j67465346285598_2_alg».proof.Proof.Spec

/-!
# The value of the second matrix product

At the extended reals the second call leaves, at row r and column n of main_v1, the sum over the 9248
contraction positions j of main_v0[r, j] · main_arg1[n, j]: point t of the grid writes columns
256 t … 256 t + 255, each entry the whole contraction (the accumulator starts from zero at every point and
0 + x = x), and the 32 column blocks tile the 8192 columns.
-/

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

/-! ## The operand indices of the block product -/

theorem lhsIdx1_0 (i : S64x256.Idx) (q : dot_S64x9248_S256x9248_S64x256_1_1_0_0_n_n.contr.Idx) :
    (dot_S64x9248_S256x9248_S64x256_1_1_0_0_n_n.lhsIdx i q 0).val = (i 0).val := by
  unfold DotDims.lhsIdx
  rw [dif_neg (show ¬(0 : Fin S64x9248.rank) ∈ dot_S64x9248_S256x9248_S64x256_1_1_0_0_n_n.lhsBatch by decide), dif_pos (show (0 : Fin S64x9248.rank) ∈ dot_S64x9248_S256x9248_S64x256_1_1_0_0_n_n.lhsNonContracting by decide)]
  rfl
theorem lhsIdx1_1 (i : S64x256.Idx) (q : dot_S64x9248_S256x9248_S64x256_1_1_0_0_n_n.contr.Idx) :
    (dot_S64x9248_S256x9248_S64x256_1_1_0_0_n_n.lhsIdx i q 1).val = (q ⟨0, by decide⟩).val :=
  dot_S64x9248_S256x9248_S64x256_1_1_0_0_n_n.lhsIdx_val_of_single rfl i q
theorem rhsIdx1_0 (i : S64x256.Idx) (q : dot_S64x9248_S256x9248_S64x256_1_1_0_0_n_n.contr.Idx) :
    (dot_S64x9248_S256x9248_S64x256_1_1_0_0_n_n.rhsIdx i q 0).val = (i 1).val := by
  unfold DotDims.rhsIdx
  rw [dif_neg (show ¬(0 : Fin S256x9248.rank) ∈ dot_S64x9248_S256x9248_S64x256_1_1_0_0_n_n.rhsBatch by decide), dif_pos (show (0 : Fin S256x9248.rank) ∈ dot_S64x9248_S256x9248_S64x256_1_1_0_0_n_n.rhsNonContracting by decide)]
  rfl
theorem rhsIdx1_1 (i : S64x256.Idx) (q : dot_S64x9248_S256x9248_S64x256_1_1_0_0_n_n.contr.Idx) :
    (dot_S64x9248_S256x9248_S64x256_1_1_0_0_n_n.rhsIdx i q 1).val = (q ⟨0, by decide⟩).val :=
  dot_S64x9248_S256x9248_S64x256_1_1_0_0_n_n.rhsIdx_val_of_single rfl i q

/-! ## The block product at an entry -/

/-- Entry (r, q) of what the body leaves in the result window: the whole contraction of row r of the left
    factor with row q of the weight's block (the zeroed accumulator adds nothing; a change of float format is
    the identity at the extended reals). -/
theorem out1_apply (x0 : Vec Ideal S64x9248 .f32) (x1 : Vec Ideal S256x9248 .f32) (r : Fin 64) (q : Fin 256) :
    out1 (F := Ideal) x0 x1 (ix2 r q) = ∑ j : Fin 9248, x0 (ix2 r j) * x1 (ix2 q j) := by
  unfold out1 Gen.k1_pay2 Gen.k1_pay1
  simp only [shapeCast_self]
  rw [addf_apply, broadcast_apply]
  show Ideal.ofBits .f32 0x00000000#32 + _ = _
  rw [Ideal.ofBits_zero_f32, zero_add]
  simp only [matmul]
  rw [Ideal.matmul_constant_zero_apply, ← Equiv.sum_comp (contrEquiv1 dot_S64x9248_S256x9248_S64x256_1_1_0_0_n_n 9248 rfl rfl).symm]
  refine Finset.sum_congr rfl fun k _ => ?_
  have hk := contrEquiv1_symm_val dot_S64x9248_S256x9248_S64x256_1_1_0_0_n_n 9248 rfl rfl k
  have el : dot_S64x9248_S256x9248_S64x256_1_1_0_0_n_n.lhsIdx (ix2 r q) ((contrEquiv1 dot_S64x9248_S256x9248_S64x256_1_1_0_0_n_n 9248 rfl rfl).symm k) = ix2 r k := funext fun a => Fin.ext (by
    match a with
    | ⟨0, _⟩ => exact lhsIdx1_0 _ _
    | ⟨1, _⟩ => exact (lhsIdx1_1 _ _).trans hk)
  have er : dot_S64x9248_S256x9248_S64x256_1_1_0_0_n_n.rhsIdx (ix2 r q) ((contrEquiv1 dot_S64x9248_S256x9248_S64x256_1_1_0_0_n_n 9248 rfl rfl).symm k) = ix2 q k := funext fun a => Fin.ext (by
    match a with
    | ⟨0, _⟩ => exact rhsIdx1_0 _ _
    | ⟨1, _⟩ => exact (rhsIdx1_1 _ _).trans hk)
  rw [truncf_apply, truncf_apply, el, er]

/-! ## Where the blocks sit -/

/-- The printed index maps over the grid: the left factor is one block, the weight's block at point t is its
    t-th group of 256 rows, the result's block at point t its t-th group of 256 columns. -/
theorem idx_facts1 : ∀ t : Fin cfg1.N, win1_0.index t (0 : Fin 2) = 0 ∧ win1_0.index t (1 : Fin 2) = 0
    ∧ win1_1.index t (0 : Fin 2) = t.val ∧ win1_1.index t (1 : Fin 2) = 0
    ∧ win1_2.index t (0 : Fin 2) = 0 ∧ win1_2.index t (1 : Fin 2) = t.val :=
  (by decide +kernel : ∀ t : Fin grid1.N, _)

section Value
variable (V : (c : Dev nD) → (b : Ref sig .tc) → Buf (Elt Ideal) ((c : Thread nD τ).loc b))

/-- Entry (r, j) of the left factor's block, at any point, is entry (r, j) of main_v0. -/
theorem iblk1_0_apply (c : Dev nD) (t : Fin cfg1.N) (r : Fin 64) (j : Fin 9248) :
    (iblk1 V c 0 t : Vec Ideal S64x9248 .f32) (ix2 r j) = (V c main_v0 : S64x9248.Idx → EReal) (ix2 r j) := by
  obtain ⟨e0, e1, -, -, -, -⟩ := idx_facts1 t
  unfold iblk1
  rw [View.read_apply]
  show V c main_v0 _ = V c main_v0 _
  congr 1
  funext a
  apply Fin.ext
  match a with
  | ⟨0, _⟩ => show win1_0.index t 0 * 64 + 1 * r.val = r.val; rw [e0]; omega
  | ⟨1, _⟩ => show win1_0.index t 1 * 9248 + 1 * j.val = j.val; rw [e1]; omega

/-- Entry (q, j) of the weight's block at point t is entry (256 t + q, j) of main_arg1. -/
theorem iblk1_1_apply (c : Dev nD) (t : Fin cfg1.N) (q : Fin 256) (j : Fin 9248) (n : Fin 8192) (hn : n.val = t.val * 256 + q.val) :
    (iblk1 V c 1 t : Vec Ideal S256x9248 .f32) (ix2 q j) = (V c main_arg1 : S8192x9248.Idx → EReal) (ix2 n j) := by
  obtain ⟨-, -, e0, e1, -, -⟩ := idx_facts1 t
  unfold iblk1
  rw [View.read_apply]
  show V c main_arg1 _ = V c main_arg1 _
  congr 1
  funext a
  apply Fin.ext
  match a with
  | ⟨0, _⟩ => show win1_1.index t 0 * 256 + 1 * q.val = n.val; rw [e0, hn]; omega
  | ⟨1, _⟩ => show win1_1.index t 1 * 9248 + 1 * j.val = j.val; rw [e1]; omega

end Value

section Final
variable (V : (c : Dev nD) → (b : Ref sig .tc) → Buf (Elt Ideal) ((c : Thread nD τ).loc b))

/-! ## What each point writes back, and the whole result -/

/-- What point t writes back is block t of the product main_v0 · main_arg1ᵀ. -/
theorem flushed1_eq (c : Dev nD) (t : Fin cfg1.N) :
    (dat1 V c).flushed 2 t = ((cfg1.win 2).blk t).view.read (Elt Ideal) (Cert.Spec.pooled (V c main_v0) (V c main_arg1)) := by
  show (cfg1.win 2).cut (grid1.coords t) ((dat1 V c).after 2 t) = _
  rw [after1_2]
  obtain ⟨-, -, -, -, e0, e1⟩ := idx_facts1 t
  have hN : t.val < 32 := lt_of_lt_of_eq t.isLt (show cfg1.N = 32 from N_1)
  funext y
  obtain ⟨r, q, rfl⟩ : ∃ (r : Fin 64) (q : Fin 256), y = ix2 r q := ⟨y 0, y 1, eq_ix2 y⟩
  refine (out1_apply (iblk1 V c 0 t) (iblk1 V c 1 t) r q).trans ?_
  have hn : t.val * 256 + q.val < 8192 := by have := q.isLt; omega
  have hemb : ((cfg1.win 2).blk t).view.emb (ix2 r q) = (ix2 r (⟨t.val * 256 + q.val, hn⟩ : Fin 8192) : S64x8192.Idx) := by
    funext a
    apply Fin.ext
    match a with
    | ⟨0, _⟩ => show win1_2.index t 0 * 64 + 1 * r.val = r.val; rw [e0]; omega
    | ⟨1, _⟩ => show win1_2.index t 1 * 256 + 1 * q.val = t.val * 256 + q.val; rw [e1]; omega
  rw [View.read_apply, hemb, Cert.Spec.pooled_ix2]
  refine Finset.sum_congr rfl fun j _ => ?_
  rw [iblk1_0_apply V c t r j, iblk1_1_apply V c t q j ⟨t.val * 256 + q.val, hn⟩ rfl]

/-- An index of the result is in point t's block iff each coordinate is in the block's range on its axis. -/
theorem mem_blk1_2 (t : Fin cfg1.N) (i : S64x8192.Idx) :
    i ∈ ((cfg1.win 2).blk t).view.set ↔ ∀ a : Fin 2, win1_2.index t a * S64x256.size a ≤ (i a).val ∧ (i a).val < win1_2.index t a * S64x256.size a + S64x256.size a := by
  show i ∈ ((View.whole main_v1).slice (win1_2.rect t)).set ↔ _
  rw [View.set_slice_whole, Rect.mem_set_unit]
  exact Iff.rfl

/-- Column n of the result is written by point n / 256. -/
theorem cover1_cols (i : S64x8192.Idx) :
    ∃ t : Fin cfg1.N, (cfg1.win 2).flush t = true ∧ i ∈ ((cfg1.win 2).blk t).view.set := by
  have hi0 : (i 0).val < 64 := (i 0).isLt
  have hi1 : (i 1).val < 8192 := (i 1).isLt
  have hN : cfg1.N = 32 := N_1
  refine ⟨⟨(i 1).val / 256, by rw [hN]; omega⟩, flush1_2 _, ?_⟩
  obtain ⟨-, -, -, -, e0, e1⟩ := idx_facts1 ⟨(i 1).val / 256, by rw [hN]; omega⟩
  rw [mem_blk1_2]
  intro a
  match a with
  | ⟨0, _⟩ => show win1_2.index _ 0 * 64 ≤ (i 0).val ∧ (i 0).val < win1_2.index _ 0 * 64 + 64; rw [e0]; omega
  | ⟨1, _⟩ => show win1_2.index _ 1 * 256 ≤ (i 1).val ∧ (i 1).val < win1_2.index _ 1 * 256 + 256; rw [e1]; show (i 1).val / 256 * 256 ≤ (i 1).val ∧ (i 1).val < (i 1).val / 256 * 256 + 256; omega

/-- THE RESULT of the second call: main_v1 ends at main_v0 · main_arg1ᵀ, entry (r, n) the sum over the 9248
    contraction positions j of main_v0[r, j] · main_arg1[n, j]. -/
theorem arr1_final (c : Dev nD) :
    (dat1 V c).arrAt 2 cfg1.N = Cert.Spec.pooled (V c main_v0) (V c main_arg1) :=
  (dat1 V c).arrAt_eq_of_cover 2 (Cert.Spec.pooled (V c main_v0) (V c main_arg1)) (fun t _ => flushed1_eq V c t) cover1_cols

end Final

end Cert.KernelIdeal.Hand

end
-- ==== Proof.Final.lean ====
/-
  The idealized kernel's result: region 0 leaves in the intermediate array the padded product x · Pᵀ, region 1 reads it
  and leaves (x · Pᵀ) · Wᵀ in the result — the specification's one function of the three argument arrays.
-/
import proofs.«124964_j67465346285598_2_alg».proof.Proof.Run
import proofs.«124964_j67465346285598_2_alg».proof.Proof.Reg0Value
import proofs.«124964_j67465346285598_2_alg».proof.Proof.Reg1Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt Ideal) ℓ) (ρ : Dev nD → PrngReg)

/-- The result array at the last boundary is the specification's function of the launch arguments. -/
theorem result_value (c : Dev nD) :
    W2 m c (Proc.devRef .tc main_v1) = Cert.Spec.G (m ((c : Thread nD τ).loc main_arg0)) (m ((c : Thread nD τ).loc main_arg1)) (m ((c : Thread nD τ).loc main_arg2)) := by
  rw [W2_main_v1, arr1_final, V1_main_v0, V1_main_arg1, arr0_final]
  rfl

/-- The idealized kernel's run, read at its result and its arguments. -/
theorem kernel_run : θ_run defs (onTc (τ := τ) (main (F := Ideal))) ⟨m, fun _ => 0, ρ⟩ (fun r => ∀ c : Dev nD,
      r.2.mem ((c.tc : Thread nD τ).loc main_v1) = Cert.Spec.G (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_v1 (by decide))).trans (result_value m c),
     (h c _ (mem_uc main_arg0 (by decide))).trans (W2_main_arg0 m c),
     (h c _ (mem_uc main_arg1 (by decide))).trans (W2_main_arg1 m c),
     (h c _ (mem_uc main_arg2 (by decide))).trans (W2_main_arg2 m c)⟩) (run_main m ρ)

end Cert.KernelIdeal.Hand

end
-- ==== Proof.RefValue.lean ====
/-
  The reference side of this certificate at the ideal instance: the term the reference's run leaves in its result,
  two host contractions of transposed operands, is the specification's function of the three argument arrays
  (`result_eq`), and the reference's run restated with that function (`ref_run`).

  Index by index: the outer contraction at (r, n) is ∑ j < 9248, y (r, j) * wᵀ (j, n) with wᵀ (j, n) = w (n, j); its left
  operand y is the inner contraction, y (r, j) = ∑ k < 8192, x (r, k) * pᵀ (k, j) with pᵀ (k, j) = p (j, k). These are the
  specification's two products as written, so nothing beyond reading each operation at an index is needed.
-/
import proofs.«124964_j67465346285598_2_alg».proof.Proof.Gen.ReferenceIdeal.Read
import proofs.«124964_j67465346285598_2_alg».proof.Proof.Spec

noncomputable section

open scoped BigOperators

namespace Cert.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-! ## The operand indices of the two contractions and the two transposes, by coordinates -/

/-- Row of the inner product's left operand: (r, k). -/
theorem inner_lhs (i : S64x9248.Idx) (k : Fin 8192) :
    lidx_main_v1 i k = ix2 (⟨(i 0).val, (i 0).isLt⟩ : Fin 64) k :=
  funext fun a => Fin.ext (by match a with | ⟨0, _⟩ => rfl | ⟨1, _⟩ => rfl)

/-- The inner product's right operand is the transposed padding transform: its entry (k, j) is p (j, k). -/
theorem inner_rhs (i : S64x9248.Idx) (k : Fin 8192) :
    idx_main_v0 (ridx_main_v1 i k) = ix2 (⟨(i 1).val, (i 1).isLt⟩ : Fin 9248) k :=
  funext fun a => Fin.ext (by match a with | ⟨0, _⟩ => rfl | ⟨1, _⟩ => rfl)

/-- Row of the outer product's left operand: (r, j). -/
theorem outer_lhs (i : S64x8192.Idx) (j : Fin 9248) :
    lidx_main_v3 i j = ix2 (⟨(i 0).val, (i 0).isLt⟩ : Fin 64) j :=
  funext fun a => Fin.ext (by match a with | ⟨0, _⟩ => rfl | ⟨1, _⟩ => rfl)

/-- The outer product's right operand is the transposed weight: its entry (j, n) is w (n, j). -/
theorem outer_rhs (i : S64x8192.Idx) (j : Fin 9248) :
    idx_main_v2 (ridx_main_v3 i j) = ix2 (⟨(i 1).val, (i 1).isLt⟩ : Fin 8192) j :=
  funext fun a => Fin.ext (by match a with | ⟨0, _⟩ => rfl | ⟨1, _⟩ => rfl)

/-! ## The reference's result is the specification -/

/-- The inner contraction against the transposed padding transform is x · pᵀ. -/
theorem inner_eq (x : FVec Ideal S64x8192 .f32) (p : FVec Ideal S9248x8192 .f32) :
    val_main_v1 (F := Ideal) x p = Cert.Spec.padded x p := by
  funext i
  rw [val_main_v1_apply]
  unfold Cert.Spec.padded Cert.Spec.paddedAt
  refine Finset.sum_congr rfl fun k _ => ?_
  rw [val_main_v0_apply, inner_lhs, inner_rhs]

/-- The two host contractions of the transposed operands compute (x · pᵀ) · wᵀ. -/
theorem result_eq (x : FVec Ideal S64x8192 .f32) (w : FVec Ideal S8192x9248 .f32) (p : FVec Ideal S9248x8192 .f32) :
    Host.dotGeneral dot_S64x9248_S9248x8192_S64x8192_1_0_0_1_n_n none
        (Host.dotGeneral dot_S64x8192_S8192x9248_S64x9248_1_0_0_1_n_n none x
          (transpose S8192x9248 [1, 0] p transposes_S9248x8192_S8192x9248_1_0))
        (transpose S9248x8192 [1, 0] w transposes_S8192x9248_S9248x8192_1_0)
      = Cert.Spec.G x w p := by
  rw [val_main_v3_eq]
  funext i
  rw [val_main_v3_apply, inner_eq]
  unfold Cert.Spec.G Cert.Spec.pooled Cert.Spec.pooledAt
  refine Finset.sum_congr rfl fun j _ => ?_
  rw [val_main_v2_apply, outer_lhs, outer_rhs]

/-! ## The reference's run, with the specification as its result -/

/-- From any memory with zero counters every weakly fair execution of the reference terminates with its result at
    (x · pᵀ) · wᵀ of the arguments' launch contents, the arguments unchanged. -/
theorem ref_run (m' : (ℓ : Loc nD τ sig) → Buf (Elt Ideal) ℓ) (ρ' : Dev nD → PrngReg) :
    θ_run (defs (F := Ideal)) (onTc (τ := τ) (main (F := Ideal))) ⟨m', fun _ => 0, ρ'⟩ fun r => ∀ c : Dev nD,
      r.2.mem ((c.tc : Thread nD τ).loc main_v3)
          = Cert.Spec.G (m' ((c.tc : Thread nD τ).loc main_arg0)) (m' ((c.tc : Thread nD τ).loc main_arg1))
              (m' ((c.tc : Thread nD τ).loc main_arg2))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2) :=
  (θ_run defs _ _).mono (fun _ h c => ⟨(h c).1.trans (result_eq _ _ _), (h c).2⟩)
    (Cert.ReferenceIdeal.Value.run (F := Ideal) m' ρ')

end Cert.RefValue

end
-- ==== Proof.lean ====
/-
  The certificate of a two-stage tiled product, out = (x · Pᵀ) · Wᵀ, against its plain reference.

  Both stages are one kernel: a block·blockᵀ product accumulated over the contraction axis in a scratch buffer, zeroed at
  the first step and copied to the output block at the last. On the extended reals a change of float format is the
  identity and the matrix unit's product is the exact sum, so stage 1 leaves x · Pᵀ — the 8192-term sum cut into 16 blocks
  of 512, which only re-associates it — and stage 2, whose contraction is one whole block, leaves (x · Pᵀ) · Wᵀ: the
  reference's two dot products. Stage 1's last row block of P overhangs the array; the rows past the end hold unnamed
  words, which reach only the accumulator's columns past the result array's end, and those are never written back.
  No law used needs finiteness: the precondition is never opened.
-/
import proofs.«124964_j67465346285598_2_alg».proof.Defs
import proofs.«124964_j67465346285598_2_alg».proof.Proof.Gen.Kernel
import proofs.«124964_j67465346285598_2_alg».proof.Proof.Gen.KernelIdeal
import proofs.«124964_j67465346285598_2_alg».proof.Proof.Gen.ReferenceIdeal
import proofs.«124964_j67465346285598_2_alg».proof.Proof.Gen.Pre_finite_inputs
import proofs.«124964_j67465346285598_2_alg».proof.Proof.KernelFrame
import proofs.«124964_j67465346285598_2_alg».proof.Proof.Final
import proofs.«124964_j67465346285598_2_alg».proof.Proof.RefValue
import Idealize.ShloMosaic.Adequacy
import Idealize.ShloMosaic.Init

noncomputable section

namespace Cert.Proof

open Idealize.ShloMosaic Idealize.SL.Sem

/-- The word-level program runs and leaves its arguments as launched. -/
theorem frame_k : Cert.frame_Kernel := fun m ρ _ => Cert.Proof.KernelFrame.frame m ρ

/-- So does the idealized one: its run read at the arguments. -/
theorem frame_ki : Cert.frame_KernelIdeal := fun m ρ _ =>
  (θ_run Cert.KernelIdeal.defs _ _).mono (fun _ h c => (h c).2) (Cert.KernelIdeal.Hand.kernel_run m ρ)

/-- And the reference. -/
theorem frame_ri : Cert.frame_ReferenceIdeal := fun m ρ _ =>
  (θ_run Cert.ReferenceIdeal.defs _ _).mono (fun _ h c => (h c).2) (Cert.RefValue.ref_run m ρ)

/-- The ideal pass rewrote nothing. -/
theorem preserves : Cert.preserves_Kernel_KernelIdeal := trivial

/-- Both idealized programs end with the specification's function of the arguments in their result. -/
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Hand.kernel_run m ρ, ?_⟩
  refine (θ_run Cert.ReferenceIdeal.defs _ _).mono (fun _ h c => ⟨?_, (h c).2⟩) (Cert.RefValue.ref_run m' ρ')
  rw [(h c).1, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
